-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x600000 : Shape := ⟨2, ![2, 600000]⟩
abbrev S600000 : Shape := ⟨1, ![600000]⟩
abbrev S50000 : Shape := ⟨1, ![50000]⟩
abbrev S128x32 : Shape := ⟨2, ![128, 32]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg9 : FVec F S3x128x128 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  main_v38

def fn_part1 {F : FTy → Type} [FloatOps F] (main_arg6 : FVec F S128x32 .f32) (main_arg7 : FVec F S3x128x128 .f32) (main_arg8 : FVec F S3x128 .f32) (main_arg9 : FVec F S3x128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_v33

def fn {F : FTy → Type} [FloatOps F] (main_arg0 : FVec F S50000x32 .f32) (main_arg1 : IVec S2x600000 32) (main_arg2 : FVec F S600000 .f32) (main_arg3 : IVec S50000 32) (main_arg4 : FVec F S128x32 .f32) (main_arg5 : FVec F S128 .f32) (main_arg6 : FVec F S128x32 .f32) (main_arg7 : FVec F S3x128x128 .f32) (main_arg8 : FVec F S3x128 .f32) (main_arg9 : FVec F S3x128x128 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x32 : Shape := ⟨2, ![50000, 32]⟩
abbrev S2x600000 : Shape := ⟨2, ![2, 600000]⟩
abbrev S600000 : Shape := ⟨1, ![600000]⟩
abbrev S50000 : Shape := ⟨1, ![50000]⟩
abbrev S128x32 : Shape := ⟨2, ![128, 32]⟩
abbrev S128 : Shape := ⟨1, ![128]⟩
abbrev S3x128x128 : Shape := ⟨3, ![3, 128, 128]⟩
abbrev S3x128 : Shape := ⟨2, ![3, 128]⟩
abbrev S1x600000 : Shape := ⟨2, ![1, 600000]⟩
abbrev S_ : Shape := ⟨0, ![]⟩
abbrev S600000x1 : Shape := ⟨2, ![600000, 1]⟩
abbrev S600000x32 : Shape := ⟨2, ![600000, 32]⟩
abbrev S1x128 : Shape := ⟨2, ![1, 128]⟩
abbrev S50000x128 : Shape := ⟨2, ![50000, 128]⟩
abbrev S5000x32 : Shape := ⟨2, ![5000, 32]⟩
abbrev S5000x128 : Shape := ⟨2, ![5000, 128]⟩
abbrev S32x128 : Shape := ⟨2, ![32, 128]⟩
abbrev S600000x128 : Shape := ⟨2, ![600000, 128]⟩
abbrev S1x128x128 : Shape := ⟨3, ![1, 128, 128]⟩
abbrev S128x128 : Shape := ⟨2, ![128, 128]⟩

abbrev nBuf : Space → Nat
  | .hbm => 104
  | .vmem => 36
  | .smem => 0
  | _ => 0

abbrev bufTy : (tb : Table) → Fin (tcTables nBuf tb) → BufTy
  | .hbm, ⟨0, _⟩ => ⟨S50000x32, .f32⟩
  | .hbm, ⟨1, _⟩ => ⟨S2x600000, .i32⟩
  | .hbm, ⟨2, _⟩ => ⟨S600000, .f32⟩
  | .hbm, ⟨3, _⟩ => ⟨S50000, .i32⟩
  | .hbm, ⟨4, _⟩ => ⟨S128x32, .f32⟩
  | .hbm, ⟨5, _⟩ => ⟨S128, .f32⟩
  | .hbm, ⟨6, _⟩ => ⟨S128x32, .f32⟩
  | .hbm, ⟨7, _⟩ => ⟨S3x128x128, .f32⟩
  | .hbm, ⟨8, _⟩ => ⟨S3x128, .f32⟩
  | .hbm, ⟨9, _⟩ => ⟨S3x128x128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x32, .f32⟩
  | .hbm, ⟨23, _⟩ => ⟨S600000x1, .f32⟩
  | .hbm, ⟨24, _⟩ => ⟨S600000x32, .f32⟩
  | .hbm, ⟨25, _⟩ => ⟨S600000x32, .f32⟩
  | .hbm, ⟨26, _⟩ => ⟨S_, .f32⟩
  | .hbm, ⟨27, _⟩ => ⟨S50000x32, .f32⟩
  | .hbm, ⟨28, _⟩ => ⟨S600000x1, .i32⟩
  | .hbm, ⟨29, _⟩ => ⟨S50000x32, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S600000x1, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S600000x1, .f32⟩
  | .hbm, ⟨66, _⟩ => ⟨S600000x128, .f32⟩
  | .hbm, ⟨67, _⟩ => ⟨S600000x128, .f32⟩
  | .hbm, ⟨68, _⟩ => ⟨S_, .f32⟩
  | .hbm, ⟨69, _⟩ => ⟨S50000x128, .f32⟩
  | .hbm, ⟨70, _⟩ => ⟨S600000x1, .i32⟩
  | .hbm, ⟨71, _⟩ => ⟨S50000x128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S50000x128, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x128, .f32⟩
  | .hbm, ⟨89, _⟩ => ⟨S600000x1, .f32⟩
  | .hbm, ⟨90, _⟩ => ⟨S600000x128, .f32⟩
  | .hbm, ⟨91, _⟩ => ⟨S600000x128, .f32⟩
  | .hbm, ⟨92, _⟩ => ⟨S_, .f32⟩
  | .hbm, ⟨93, _⟩ => ⟨S50000x128, .f32⟩
  | .hbm, ⟨94, _⟩ => ⟨S600000x1, .i32⟩
  | .hbm, ⟨95, _⟩ => ⟨S50000x128, .f32⟩
  | .hbm, ⟨96, _⟩ => ⟨S1x128x128, .f32⟩
  | .hbm, ⟨97, _⟩ => ⟨S128x128, .f32⟩
  | .hbm, ⟨98, _⟩ => ⟨S1x128, .f32⟩
  | .hbm, ⟨99, _⟩ => ⟨S128, .f32⟩
  | .hbm, ⟨100, _⟩ => ⟨S1x128x128, .f32⟩
  | .hbm, ⟨101, _⟩ => ⟨S128x128, .f32⟩
  | .hbm, ⟨102, _⟩ => ⟨S1x128, .f32⟩
  | .hbm, ⟨103, _⟩ => ⟨S50000x128, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S128x32, .f32⟩
  | .local _ .vmem, ⟨5, _⟩ => ⟨S1x128, .f32⟩
  | .local _ .vmem, ⟨6, _⟩ => ⟨S128x32, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S5000x128, .f32⟩
  | .local _ .vmem, ⟨35, _⟩ => ⟨S5000x128, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_7 : Ref sig .tc := ⟨.hbm, 80, rfl⟩
abbrev main_v61 : Ref sig .tc := ⟨.hbm, 81, rfl⟩
abbrev main_v62 : Ref sig .tc := ⟨.hbm, 82, rfl⟩
abbrev main_c_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_9 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x32_0_1 : S600000x1.BroadcastsInDim S600000x32 (![0, 1] : Fin 2 → Fin S600000x32.rank)
  bcast_S_S50000x32 : S_.BroadcastsInDim S50000x32 (![] : Fin 0 → Fin S50000x32.rank)
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  transposes_S128x32_p1_0_S32x128 : S128x32.Transposes [1, 0] S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  dot_S5000x32_S32x128_S5000x128_1_0_0_1_n_n_wf : DotDims.WF S5000x32 S32x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S50000x32.size a
  hwx0_1 : ∀ i : grid0.Coords, EltTy.bits .f32 = 32 ∨ (Rect.block (s := S50000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x32 : Shape := ⟨2, ![50000, 32]⟩
abbrev S2x600000 : Shape := ⟨2, ![2, 600000]⟩
abbrev S600000 : Shape := ⟨1, ![600000]⟩
abbrev S50000 : Shape := ⟨1, ![50000]⟩
abbrev S128x32 : Shape := ⟨2, ![128, 32]⟩
abbrev S128 : Shape := ⟨1, ![128]⟩
abbrev S3x128x128 : Shape := ⟨3, ![3, 128, 128]⟩
abbrev S3x128 : Shape := ⟨2, ![3, 128]⟩
abbrev S1x600000 : Shape := ⟨2, ![1, 600000]⟩
abbrev S_ : Shape := ⟨0, ![]⟩
abbrev S600000x1 : Shape := ⟨2, ![600000, 1]⟩
abbrev S600000x32 : Shape := ⟨2, ![600000, 32]⟩
abbrev S32x128 : Shape := ⟨2, ![32, 128]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S600000x128 : Shape := ⟨2, ![600000, 128]⟩

abbrev nBuf : Space → Nat
  | .hbm => 148
  | .vmem => 0
  | .smem => 0
  | _ => 0

abbrev hbmTy0_0 (i : Nat) : BufTy := match i % 128 with
  | 0 => ⟨S50000x32, .f32⟩
  | 1 => ⟨S2x600000, .i32⟩
  | 2 => ⟨S600000, .f32⟩
  | 3 => ⟨S50000, .i32⟩
  | 4 => ⟨S128x32, .f32⟩
  | 5 => ⟨S128, .f32⟩
  | 6 => ⟨S128x32, .f32⟩
  | 7 => ⟨S3x128x128, .f32⟩
  | 8 => ⟨S3x128, .f32⟩
  | 9 => ⟨S3x128x128, .f32⟩
  | 10 => ⟨S1x600000, .i32⟩
  | 11 => ⟨S600000, .i32⟩
  | 12 => ⟨S1x600000, .i32⟩
  | 13 => ⟨S600000, .i32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x32, .f32⟩
  | 23 => ⟨S600000x1, .f32⟩
  | 24 => ⟨S600000x32, .f32⟩
  | 25 => ⟨S600000x32, .f32⟩
  | 26 => ⟨S_, .f32⟩
  | 27 => ⟨S50000x32, .f32⟩
  | 28 => ⟨S600000x1, .i32⟩
  | 29 => ⟨S50000x32, .f32⟩
  | 30 => ⟨S32x128, .f32⟩
  | 31 => ⟨S50000x128, .f32⟩
  | 32 => ⟨S1x128, .f32⟩
  | 33 => ⟨S50000x128, .f32⟩
  | 34 => ⟨S50000x128, .f32⟩
  | 35 => ⟨S32x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S128x128, .f32⟩
  | 64 => ⟨S50000x128, .f32⟩
  | 65 => ⟨S1x128, .f32⟩
  | 66 => ⟨S50000x128, .f32⟩
  | 67 => ⟨S50000x128, .f32⟩
  | 68 => ⟨S128x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128x128, .f32⟩
  | 83 => ⟨S128x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S600000x1, .f32⟩
  | 94 => ⟨S600000x128, .f32⟩
  | 95 => ⟨S600000x128, .f32⟩
  | 96 => ⟨S_, .f32⟩
  | 97 => ⟨S50000x128, .f32⟩
  | 98 => ⟨S600000x1, .i32⟩
  | 99 => ⟨S50000x128, .f32⟩
  | 100 => ⟨S128x128, .f32⟩
  | 101 => ⟨S50000x128, .f32⟩
  | 102 => ⟨S1x128, .f32⟩
  | 103 => ⟨S50000x128, .f32⟩
  | 104 => ⟨S50000x128, .f32⟩
  | 105 => ⟨S128x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S1x128x128, .f32⟩
  | 116 => ⟨S128x128, .f32⟩
  | 117 => ⟨S1x128, .f32⟩
  | 118 => ⟨S128, .f32⟩
  | 119 => ⟨S1x128x128, .f32⟩
  | 120 => ⟨S128x128, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S50000x32, .f32⟩

abbrev hbmTy0_1 (i : Nat) : BufTy := match i % 128 with
  | 0 => ⟨S600000x1, .i32⟩
  | 1 => ⟨S600000x128, .f32⟩
  | 2 => ⟨S600000x1, .f32⟩
  | 3 => ⟨S600000x128, .f32⟩
  | 4 => ⟨S600000x128, .f32⟩
  | 5 => ⟨S_, .f32⟩
  | 6 => ⟨S50000x128, .f32⟩
  | 7 => ⟨S600000x1, .i32⟩
  | 8 => ⟨S50000x128, .f32⟩
  | 9 => ⟨S128x128, .f32⟩
  | 10 => ⟨S50000x128, .f32⟩
  | 11 => ⟨S1x128, .f32⟩
  | 12 => ⟨S50000x128, .f32⟩
  | 13 => ⟨S50000x128, .f32⟩
  | 14 => ⟨S128x128, .f32⟩
  | 15 => ⟨S50000x128, .f32⟩
  | 16 => ⟨S50000x128, .f32⟩
  | 17 => ⟨S_, .f32⟩
  | 18 => ⟨S50000x128, .f32⟩
  | 19 => ⟨S50000x128, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_1 : Ref sig .tc := ⟨.hbm, 47, rfl⟩
abbrev main_v32 : Ref sig .tc := ⟨.hbm, 48, rfl⟩
abbrev main_v33 : Ref sig .tc := ⟨.hbm, 49, rfl⟩
abbrev main_c_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call1_cst : Ref sig .tc := ⟨.hbm, 71, rfl⟩
abbrev main_call1_v0 : Ref sig .tc := ⟨.hbm, 72, rfl⟩
abbrev main_v53 : Ref sig .tc := ⟨.hbm, 73, rfl⟩
abbrev main_v54 : Ref sig .tc := ⟨.hbm, 74, rfl⟩
abbrev main_call2_cst : Ref sig .tc := ⟨.hbm, 75, rfl⟩
abbrev main_call2_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_4 : Ref sig .tc := ⟨.hbm, 84, rfl⟩
abbrev main_v62 : Ref sig .tc := ⟨.hbm, 85, rfl⟩
abbrev main_v63 : Ref sig .tc := ⟨.hbm, 86, rfl⟩
abbrev main_c_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_6 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_call3_cst : Ref sig .tc := ⟨.hbm, 108, rfl⟩
abbrev main_call3_v0 : Ref sig .tc := ⟨.hbm, 109, rfl⟩
abbrev main_v83 : Ref sig .tc := ⟨.hbm, 110, rfl⟩
abbrev main_v84 : Ref sig .tc := ⟨.hbm, 111, rfl⟩
abbrev main_call4_cst : Ref sig .tc := ⟨.hbm, 112, rfl⟩
abbrev main_call4_v0 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_7 : Ref sig .tc := ⟨.hbm, 121, rfl⟩
abbrev main_v92 : Ref sig .tc := ⟨.hbm, 122, rfl⟩
abbrev main_v93 : Ref sig .tc := ⟨.hbm, 123, rfl⟩
abbrev main_c_8 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_9 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_call5_cst : Ref sig .tc := ⟨.hbm, 145, rfl⟩
abbrev main_call5_v0 : Ref sig .tc := ⟨.hbm, 146, rfl⟩
abbrev main_v113 : Ref sig .tc := ⟨.hbm, 147, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x32_0_1 : S600000x1.BroadcastsInDim S600000x32 (![0, 1] : Fin 2 → Fin S600000x32.rank)
  bcast_S_S50000x32 : S_.BroadcastsInDim S50000x32 (![] : Fin 0 → Fin S50000x32.rank)
  transposes_S128x32_S32x128_1_0 : S128x32.Transposes [1, 0] S32x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S600000x1_S600000x128_0_1 : S600000x1.BroadcastsInDim S600000x128 (![0, 1] : Fin 2 → Fin S600000x128.rank)
  transposes_S128x128_S128x128_1_0 : S128x128.Transposes [1, 0] S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  dot_S50000x32_S32x128_S50000x128_1_0_0_1_n_n_wf : DotDims.WF S50000x32 S32x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with the array it returns named.

  Every weakly fair execution of the four launches and the host operations between them terminates without a fault;
  the returned buffer then holds what the last launch's write-backs leave in it (the contents at the last segment
  boundary, read at the result's reference), and the ten argument arrays are as launched. The statement adds that one
  conjunct, about the result, to the run that leaves the arguments unchanged; the launch, the chain of segment
  boundaries and the read-back of the final state are those of that run.
-/
import proofs.«133423_j481036337792_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run of the idealized kernel: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v81) = W8 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v81 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Run

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«133423_j481036337792_1_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.LibGraphLayer.lean ====
/-
  One graph-convolution layer read at an index, on the extended reals.

  A layer takes the aggregated neighbour features `a` and the node features `x` (both `[N, K]`), two weight matrices
  `W`, `Wr` (both `[H, K]`, used transposed) and a bias `b` (one entry per output feature), and gives at node `p`, feature `q`
      conv p q = ((sum over e of a(p,e) * W(q,e)) + b(q)) + sum over e of x(p,e) * Wr(q,e),
  then `max (conv p q) 0` (a plain layer), or `max (max (conv p q) 0 + x(p,q)) 0` (a layer with the residual, K = H).

  Two spellings of that layer are read at an index here and shown to be this function:
  the host's (a `dot_general` against the transposed weights, the bias broadcast along the rows by two
  `broadcast_in_dim`s, a `maximum` against a broadcast zero), and a kernel tile's (a `tpu.matmul` into a zero
  accumulator against the transposed weights, the operands narrowed to bf16 — the identity on extended reals —, the bias
  row broadcast down the tile, `maximumf` against a splat zero). No sum is rearranged: both spellings contract in
  the same order, so nothing here needs the entries to be finite.
-/
import proofs.«133423_j481036337792_1_alg».proof.Proof.LibMatmulNN
import proofs.«133423_j481036337792_1_alg».proof.Proof.LibDotNN
import proofs.«133423_j481036337792_1_alg».proof.Proof.LibBroadcastInDim
import proofs.«133423_j481036337792_1_alg».proof.Proof.LibBiasRow
import Idealize.ShloMosaic.Lib.Pipeline.Value
import Idealize.ShloMosaic.Lib.ValueIdx
import Idealize.ShloMosaic.PureOps.Ideal.Laws

noncomputable section

namespace Cert.GraphLayer

open Idealize.ShloMosaic Idealize.ShloMosaic.ValueIdx

variable {N K H : ℕ}

/-- The pre-activation of one layer at node `p`, feature `q`. -/
def conv (a x : FVec Ideal (⟨2, ![N, K]⟩ : Shape) .f32) (W Wr : FVec Ideal (⟨2, ![H, K]⟩ : Shape) .f32) (b : Fin H → EReal)
    (p : Fin N) (q : Fin H) : EReal :=
  ((∑ e : Fin K, a (ix2 p e) * W (ix2 q e)) + b q) + ∑ e : Fin K, x (ix2 p e) * Wr (ix2 q e)

/-- The rectifier: the maximum with the float zero (kept as its bit pattern; it is never evaluated). -/
def relu0 (v : EReal) : EReal := max v (Ideal.ofBits .f32 0x00000000#32)

/-- A plain layer, as an array. -/
def plain (a x : FVec Ideal (⟨2, ![N, K]⟩ : Shape) .f32) (W Wr : FVec Ideal (⟨2, ![H, K]⟩ : Shape) .f32) (b : Fin H → EReal) :
    FVec Ideal (⟨2, ![N, H]⟩ : Shape) .f32 :=
  fun i => relu0 (conv a x W Wr b (i 0) (i 1))

/-- A layer with the residual connection (the input and output widths agree), as an array. -/
def skip (a x : FVec Ideal (⟨2, ![N, H]⟩ : Shape) .f32) (W Wr : FVec Ideal (⟨2, ![H, H]⟩ : Shape) .f32) (b : Fin H → EReal) :
    FVec Ideal (⟨2, ![N, H]⟩ : Shape) .f32 :=
  fun i => relu0 (relu0 (conv a x W Wr b (i 0) (i 1)) + x i)

/-- A `[H, K]` matrix transposed to `[K, H]` reads, at `(e, q)`, the matrix at `(q, e)`. -/
theorem transpose_read {α : Type} (W : (⟨2, ![H, K]⟩ : Shape).Idx → α)
    (hT : (⟨2, ![H, K]⟩ : Shape).Transposes [1, 0] ⟨2, ![K, H]⟩) (e : Fin K) (q : Fin H) :
    transpose ⟨2, ![K, H]⟩ [1, 0] W hT (ix2 e q) = W (ix2 q e) :=
  transpose_apply [1, 0] W hT (ix2 e q) (ix2 q e) fun b => by
    match b with
    | ⟨0, _⟩ => rfl
    | ⟨1, _⟩ => rfl

variable (wf : DotDims.WF (⟨2, ![N, K]⟩ : Shape) (⟨2, ![K, H]⟩ : Shape) (⟨2, ![N, H]⟩ : Shape) [1] [0] [0] [1] [] [])

/-- The host's pre-activation read at `(p, q)`. -/
theorem host_conv_apply (hT : (⟨2, ![H, K]⟩ : Shape).Transposes [1, 0] ⟨2, ![K, H]⟩)
    (h1 : (⟨1, ![H]⟩ : Shape).BroadcastsInDim ⟨2, ![1, H]⟩ ![1])
    (h2 : (⟨2, ![1, H]⟩ : Shape).BroadcastsInDim ⟨2, ![N, H]⟩ ![0, 1])
    (a x : FVec Ideal (⟨2, ![N, K]⟩ : Shape) .f32) (W Wr : FVec Ideal (⟨2, ![H, K]⟩ : Shape) .f32)
    (b : FVec Ideal (⟨1, ![H]⟩ : Shape) .f32) (p : Fin N) (q : Fin H) :
    addf (addf (Host.dotGeneral (LibMatmulNN.dims wf) none a (transpose ⟨2, ![K, H]⟩ [1, 0] W hT))
            (broadcastInDim ⟨2, ![N, H]⟩ ![0, 1] h2 (broadcastInDim ⟨2, ![1, H]⟩ ![1] h1 b)))
        (Host.dotGeneral (LibMatmulNN.dims wf) none x (transpose ⟨2, ![K, H]⟩ [1, 0] Wr hT)) (ix2 p q)
      = conv a x W Wr (fun q => b (ix1 q)) p q := by
  unfold Host.dotGeneral
  rw [addf_apply, addf_apply, LibDotNN.dotGeneral_apply wf, LibDotNN.dotGeneral_apply wf,
    BroadcastRead.row_apply _ h2 p q, BroadcastRead.vector_row_apply b h1 0 q]
  unfold conv
  refine congrArg₂ (· + ·) (congrArg₂ (· + ·) (Finset.sum_congr rfl fun e _ => ?_) rfl) (Finset.sum_congr rfl fun e _ => ?_)
  · exact congrArg (a (ix2 p e) * ·) (transpose_read W hT e q)
  · exact congrArg (x (ix2 p e) * ·) (transpose_read Wr hT e q)

/-- A kernel tile's pre-activation read at `(p, q)`: the bf16 narrowings are the identity, the products into zero
    accumulators are the two sums, the bias row is repeated down the tile. -/
theorem tile_conv_apply (hb : FTy.bf16.bits < FTy.f32.bits)
    (hT : (⟨2, ![H, K]⟩ : Shape).Transposes [1, 0] ⟨2, ![K, H]⟩)
    (hbc : (⟨2, ![1, H]⟩ : Shape).Broadcasts ⟨2, ![N, H]⟩)
    (a x : FVec Ideal (⟨2, ![N, K]⟩ : Shape) .f32) (W Wr : FVec Ideal (⟨2, ![H, K]⟩ : Shape) .f32)
    (brow : FVec Ideal (⟨2, ![1, H]⟩ : Shape) .f32) (p : Fin N) (q : Fin H) :
    addf (addf (matmul (LibMatmulNN.dims wf) none (truncf .bf16 a hb) (transpose ⟨2, ![K, H]⟩ [1, 0] (truncf .bf16 W hb) hT)
              (constant ⟨2, ![N, H]⟩ .f32 0x00000000#32))
            (broadcastTo ⟨2, ![N, H]⟩ brow hbc))
        (matmul (LibMatmulNN.dims wf) none (truncf .bf16 x hb) (transpose ⟨2, ![K, H]⟩ [1, 0] (truncf .bf16 Wr hb) hT)
          (constant ⟨2, ![N, H]⟩ .f32 0x00000000#32)) (ix2 p q)
      = conv a x W Wr (fun q => brow (ix2 (0 : Fin 1) q)) p q := by
  unfold Idealize.ShloMosaic.matmul
  rw [addf_apply, addf_apply, LibMatmulNN.matmul_zero_apply wf, LibMatmulNN.matmul_zero_apply wf,
    BiasRead.row_down_apply brow hbc p q]
  unfold conv
  refine congrArg₂ (· + ·) (congrArg₂ (· + ·) (Finset.sum_congr rfl fun e _ => ?_) rfl) (Finset.sum_congr rfl fun e _ => ?_)
  · exact congrArg (a (ix2 p e) * ·) (transpose_read (truncf .bf16 W hb) hT e q)
  · exact congrArg (x (ix2 p e) * ·) (transpose_read (truncf .bf16 Wr hb) hT e q)

/-- The host's plain layer — the pre-activation against a zero broadcast from a rank-0 constant — is `plain`. -/
theorem host_plain_eq (hT : (⟨2, ![H, K]⟩ : Shape).Transposes [1, 0] ⟨2, ![K, H]⟩)
    (h1 : (⟨1, ![H]⟩ : Shape).BroadcastsInDim ⟨2, ![1, H]⟩ ![1])
    (h2 : (⟨2, ![1, H]⟩ : Shape).BroadcastsInDim ⟨2, ![N, H]⟩ ![0, 1])
    (h0 : (⟨0, ![]⟩ : Shape).BroadcastsInDim ⟨2, ![N, H]⟩ ![])
    (a x : FVec Ideal (⟨2, ![N, K]⟩ : Shape) .f32) (W Wr : FVec Ideal (⟨2, ![H, K]⟩ : Shape) .f32)
    (b : FVec Ideal (⟨1, ![H]⟩ : Shape) .f32) :
    maximumf
        (addf (addf (Host.dotGeneral (LibMatmulNN.dims wf) none a (transpose ⟨2, ![K, H]⟩ [1, 0] W hT))
            (broadcastInDim ⟨2, ![N, H]⟩ ![0, 1] h2 (broadcastInDim ⟨2, ![1, H]⟩ ![1] h1 b)))
          (Host.dotGeneral (LibMatmulNN.dims wf) none x (transpose ⟨2, ![K, H]⟩ [1, 0] Wr hT)))
        (broadcastInDim ⟨2, ![N, H]⟩ ![] h0 (constant (F := Ideal) ⟨0, ![]⟩ .f32 0x00000000#32))
      = plain a x W Wr (fun q => b (ix1 q)) := by
  funext i
  obtain ⟨p, q, rfl⟩ : ∃ (p : Fin N) (q : Fin H), i = ix2 p q := ⟨i 0, i 1, eq_ix2 i⟩
  rw [maximumf_apply, host_conv_apply wf hT h1 h2, BiasRead.scalar_apply _ h0 _ (fun ax => ax.elim0)]
  rfl

/-- The host's layer with the residual — rectify, add the node features, rectify again — is `skip`. -/
theorem host_skip_eq (wf' : DotDims.WF (⟨2, ![N, H]⟩ : Shape) (⟨2, ![H, H]⟩ : Shape) (⟨2, ![N, H]⟩ : Shape) [1] [0] [0] [1] [] [])
    (hT : (⟨2, ![H, H]⟩ : Shape).Transposes [1, 0] ⟨2, ![H, H]⟩)
    (h1 : (⟨1, ![H]⟩ : Shape).BroadcastsInDim ⟨2, ![1, H]⟩ ![1])
    (h2 : (⟨2, ![1, H]⟩ : Shape).BroadcastsInDim ⟨2, ![N, H]⟩ ![0, 1])
    (h0 : (⟨0, ![]⟩ : Shape).BroadcastsInDim ⟨2, ![N, H]⟩ ![])
    (a x : FVec Ideal (⟨2, ![N, H]⟩ : Shape) .f32) (W Wr : FVec Ideal (⟨2, ![H, H]⟩ : Shape) .f32)
    (b : FVec Ideal (⟨1, ![H]⟩ : Shape) .f32) :
    maximumf
        (addf
          (maximumf
            (addf (addf (Host.dotGeneral (LibMatmulNN.dims wf') none a (transpose ⟨2, ![H, H]⟩ [1, 0] W hT))
                (broadcastInDim ⟨2, ![N, H]⟩ ![0, 1] h2 (broadcastInDim ⟨2, ![1, H]⟩ ![1] h1 b)))
              (Host.dotGeneral (LibMatmulNN.dims wf') none x (transpose ⟨2, ![H, H]⟩ [1, 0] Wr hT)))
            (broadcastInDim ⟨2, ![N, H]⟩ ![] h0 (constant (F := Ideal) ⟨0, ![]⟩ .f32 0x00000000#32)))
          x)
        (broadcastInDim ⟨2, ![N, H]⟩ ![] h0 (constant (F := Ideal) ⟨0, ![]⟩ .f32 0x00000000#32))
      = skip a x W Wr (fun q => b (ix1 q)) := by
  funext i
  obtain ⟨p, q, rfl⟩ : ∃ (p : Fin N) (q : Fin H), i = ix2 p q := ⟨i 0, i 1, eq_ix2 i⟩
  rw [maximumf_apply, addf_apply, maximumf_apply, host_conv_apply wf' hT h1 h2,
    BiasRead.scalar_apply _ h0 _ (fun ax => ax.elim0)]
  rfl

end Cert.GraphLayer

end
-- ==== Proof.Tile.lean ====
/-
  What a tile of each launch writes, read at an index.

  Each launch's body loads a tile of the aggregated features `a` and of the node features `x` (5000 rows each), the two
  weight matrices and the bias row, and stores ONE value: the layer of those tiles. Read at row `r`, feature `q` of the
  tile it is the layer function of `Cert.GraphLayer` of the loaded blocks — plain for the first and the last launch,
  with the residual for the two in between.
-/
import proofs.«133423_j481036337792_1_alg».proof.Proof.Gen.KernelIdeal.Skeleton
import proofs.«133423_j481036337792_1_alg».proof.Proof.LibGraphLayer

noncomputable section

namespace Cert.KernelIdeal.Tile

open Cert.KernelIdeal Cert.KernelIdeal.Gen Idealize.ShloMosaic Idealize.ShloMosaic.ValueIdx Cert.GraphLayer

/-- The first launch's tile (32 input features, no residual). -/
theorem pay0_apply (v0 v3 : Vec Ideal S5000x32 .f32) (v5 v7 : Vec Ideal S128x32 .f32) (v13 : Vec Ideal S1x128 .f32)
    (r : Fin 5000) (q : Fin 128) :
    k0_pay1 (F := Ideal) v0 v3 v5 v7 v13 (ix2 r q)
      = relu0 (conv (N := 5000) (K := 32) (H := 128) v0 v3 v5 v7 (fun q => v13 (ix2 (0 : Fin 1) q)) r q) := by
  unfold k0_pay1
  simp only [shapeCast_self]
  exact congrArg relu0 (tile_conv_apply (N := 5000) (K := 32) (H := 128) dot_S5000x32_S32x128_S5000x128_1_0_0_1_n_n.wf
    bitsLt_bf16_f32 transposes_S128x32_p1_0_S32x128 broadcasts_S1x128_S5000x128 v0 v3 v5 v7 v13 r q)

/-- The second launch's tile (the residual added, then rectified again). -/
theorem pay1_apply (v0 v3 : Vec Ideal S5000x128 .f32) (v6 v9 : Vec Ideal S128x128 .f32) (v16 : Vec Ideal S1x128 .f32)
    (r : Fin 5000) (q : Fin 128) :
    k1_pay1 (F := Ideal) v0 v3 v6 v9 v16 (ix2 r q)
      = relu0 (relu0 (conv (N := 5000) (K := 128) (H := 128) v0 v3 v6 v9 (fun q => v16 (ix2 (0 : Fin 1) q)) r q) + v3 (ix2 r q)) := by
  unfold k1_pay1
  simp only [shapeCast_self]
  exact congrArg (fun v => relu0 (relu0 v + v3 (ix2 r q))) (tile_conv_apply (N := 5000) (K := 128) (H := 128)
    dot_S5000x128_S128x128_S5000x128_1_0_0_1_n_n.wf bitsLt_bf16_f32 transposes_S128x128_p1_0_S128x128
    broadcasts_S1x128_S5000x128 v0 v3 v6 v9 v16 r q)

/-- The third launch's tile: the same body as the second's. -/
theorem pay2_apply (v0 v3 : Vec Ideal S5000x128 .f32) (v6 v9 : Vec Ideal S128x128 .f32) (v16 : Vec Ideal S1x128 .f32)
    (r : Fin 5000) (q : Fin 128) :
    k2_pay1 (F := Ideal) v0 v3 v6 v9 v16 (ix2 r q)
      = relu0 (relu0 (conv (N := 5000) (K := 128) (H := 128) v0 v3 v6 v9 (fun q => v16 (ix2 (0 : Fin 1) q)) r q) + v3 (ix2 r q)) :=
  pay1_apply v0 v3 v6 v9 v16 r q

/-- The last launch's tile (128 input features, no residual). -/
theorem pay3_apply (v0 v3 : Vec Ideal S5000x128 .f32) (v6 v9 : Vec Ideal S128x128 .f32) (v16 : Vec Ideal S1x128 .f32)
    (r : Fin 5000) (q : Fin 128) :
    k3_pay1 (F := Ideal) v0 v3 v6 v9 v16 (ix2 r q)
      = relu0 (conv (N := 5000) (K := 128) (H := 128) v0 v3 v6 v9 (fun q => v16 (ix2 (0 : Fin 1) q)) r q) := by
  unfold k3_pay1
  simp only [shapeCast_self]
  exact congrArg relu0 (tile_conv_apply (N := 5000) (K := 128) (H := 128) dot_S5000x128_S128x128_S5000x128_1_0_0_1_n_n.wf
    bitsLt_bf16_f32 transposes_S128x128_p1_0_S128x128 broadcasts_S1x128_S5000x128 v0 v3 v6 v9 v16 r q)

end Cert.KernelIdeal.Tile

end
-- ==== Proof.Arr0.lean ====
/-
  The first launch's output array, as one function of the arrays the launch finds.

  The launch runs ten grid points; point `t` loads rows `t*5000 … t*5000+4999` of the aggregated features and of the node
  features, the whole weight matrices and the whole bias row, and writes rows `t*5000 … t*5000+4999` of the output.
  A layer's row `p` depends on row `p` of the two feature arrays only, so the tile the body computes at point
  `t` IS block `t` of the whole-array layer (`Cert.GraphLayer.plain`), and the ten blocks cover the output: the output
  array ends holding that layer of the arrays found at entry.
-/
import proofs.«133423_j481036337792_1_alg».proof.Proof.Gen.KernelIdeal.Frame
import proofs.«133423_j481036337792_1_alg».proof.Proof.Tile
import Idealize.ShloMosaic.Lib.Pipeline.Value

set_option maxRecDepth 16384

noncomputable section

namespace Cert.KernelIdeal.Arr0

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the output move one block of rows per point; the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has ten points. -/
theorem t_lt (t : Fin cfg0.N) : t.val < 10 := by
  have h : cfg0.N = 10 := N_0
  have := t.isLt
  omega

/-- Row `t*5000 + r` of a 50000-row array, as an index. -/
abbrev row (t : Fin cfg0.N) (r : Fin 5000) : Fin 50000 := ⟨t.val * 5000 + r.val, by have := t_lt t; omega⟩

/-- Row `r` of point `t`'s block of the aggregated features is row `t*5000 + r` of the array. -/
theorem read_agg (c : Dev nD) (t : Fin cfg0.N) (r : Fin 5000) (e : Fin 32) :
    iblk0 V c 0 t (ix2 r e) = V c main_v16 (ix2 (row t r) e) := by
  show V c main_v16 (((cfg0.win 0).blk t).view.emb (ix2 r e)) = _
  refine congrArg (V c main_v16) (funext fun a => Fin.ext ?_)
  obtain ⟨e0, e1, -⟩ := idx_facts t
  match a with
  | ⟨0, _⟩ => show win0_0.index t (0 : Fin 2) * 5000 + 1 * r.val = t.val * 5000 + r.val; omega
  | ⟨1, _⟩ => show win0_0.index t (1 : Fin 2) * 32 + 1 * e.val = e.val; omega

/-- Row `r` of point `t`'s block of the node features is row `t*5000 + r` of the array. -/
theorem read_x (c : Dev nD) (t : Fin cfg0.N) (r : Fin 5000) (e : Fin 32) :
    iblk0 V c 1 t (ix2 r e) = V c main_arg0 (ix2 (row t r) e) := by
  show V c main_arg0 (((cfg0.win 1).blk t).view.emb (ix2 r e)) = _
  refine congrArg (V c main_arg0) (funext fun a => Fin.ext ?_)
  obtain ⟨-, -, e0, e1, -⟩ := idx_facts t
  match a with
  | ⟨0, _⟩ => show win0_1.index t (0 : Fin 2) * 5000 + 1 * r.val = t.val * 5000 + r.val; omega
  | ⟨1, _⟩ => show win0_1.index t (1 : Fin 2) * 32 + 1 * e.val = e.val; omega

/-- Every point's block of the first weight matrix is the whole matrix. -/
theorem read_w (c : Dev nD) (t : Fin cfg0.N) (q : Fin 128) (e : Fin 32) :
    iblk0 V c 2 t (ix2 q e) = V c main_arg4 (ix2 q e) := by
  show V c main_arg4 (((cfg0.win 2).blk t).view.emb (ix2 q e)) = _
  refine congrArg (V c main_arg4) (funext fun a => Fin.ext ?_)
  obtain ⟨-, -, -, -, e0, e1, -⟩ := idx_facts t
  match a with
  | ⟨0, _⟩ => show win0_2.index t (0 : Fin 2) * 128 + 1 * q.val = q.val; omega
  | ⟨1, _⟩ => show win0_2.index t (1 : Fin 2) * 32 + 1 * e.val = e.val; omega

/-- Every point's block of the bias row is the whole row. -/
theorem read_b (c : Dev nD) (t : Fin cfg0.N) (u : Fin 1) (q : Fin 128) :
    iblk0 V c 3 t (ix2 u q) = V c main_v17 (ix2 u q) := by
  show V c main_v17 (((cfg0.win 3).blk t).view.emb (ix2 u q)) = _
  refine congrArg (V c main_v17) (funext fun a => Fin.ext ?_)
  obtain ⟨-, -, -, -, -, -, e0, e1, -⟩ := idx_facts t
  match a with
  | ⟨0, _⟩ => show win0_3.index t (0 : Fin 2) * 1 + 1 * u.val = u.val; omega
  | ⟨1, _⟩ => show win0_3.index t (1 : Fin 2) * 128 + 1 * q.val = q.val; omega

/-- Every point's block of the second weight matrix is the whole matrix. -/
theorem read_wr (c : Dev nD) (t : Fin cfg0.N) (q : Fin 128) (e : Fin 32) :
    iblk0 V c 4 t (ix2 q e) = V c main_arg6 (ix2 q e) := by
  show V c main_arg6 (((cfg0.win 4).blk t).view.emb (ix2 q e)) = _
  refine congrArg (V c main_arg6) (funext fun a => Fin.ext ?_)
  obtain ⟨-, -, -, -, -, -, -, -, e0, e1, -⟩ := idx_facts t
  match a with
  | ⟨0, _⟩ => show win0_4.index t (0 : Fin 2) * 128 + 1 * q.val = q.val; omega
  | ⟨1, _⟩ => show win0_4.index t (1 : Fin 2) * 32 + 1 * e.val = e.val; omega

/-- Entry `(r, q)` of point `t`'s output block is entry `(t*5000 + r, q)` of the output array. -/
theorem emb_out (t : Fin cfg0.N) (r : Fin 5000) (q : Fin 128) :
    ((cfg0.win 5).blk t).view.emb (ix2 r q) = ix2 (row t r) q := by
  funext a; apply Fin.ext
  obtain ⟨-, -, -, -, -, -, -, -, -, -, e0, e1⟩ := idx_facts t
  match a with
  | ⟨0, _⟩ => show win0_5.index t (0 : Fin 2) * 5000 + 1 * r.val = t.val * 5000 + r.val; omega
  | ⟨1, _⟩ => show win0_5.index t (1 : Fin 2) * 128 + 1 * q.val = q.val; omega

/-- The whole-array layer of the arrays the launch finds. -/
abbrev G (c : Dev nD) : FVec Ideal S50000x128 .f32 :=
  plain (N := 50000) (K := 32) (H := 128) (V c main_v16) (V c main_arg0) (V c main_arg4) (V c main_arg6) (fun q => V c main_v17 (ix2 (0 : Fin 1) q))

/-- What point `t` writes back is block `t` of the whole-array layer. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x32) hz, View.ld_unit_zero (S := S128x32) hz, View.ld_unit_zero (S := S1x128) hz]
  funext j
  obtain ⟨r, q, rfl⟩ : ∃ (r : Fin 5000) (q : Fin 128), j = ix2 r q := ⟨j 0, j 1, eq_ix2 j⟩
  refine (Tile.pay0_apply _ _ _ _ _ r q).trans ?_
  show _ = G V c (((cfg0.win 5).blk t).view.emb (ix2 r q))
  rw [emb_out]
  unfold G plain conv
  simp only [read_agg, read_x, read_w, read_b, read_wr]

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- The ten blocks cover the output: row `p` is in the block of point `p / 5000`. -/
theorem cover (i : S50000x128.Idx) : ∃ t : Fin cfg0.N, (cfg0.win 5).flush t = true ∧ i ∈ ((cfg0.win 5).blk t).view.set := by
  have hN : grid0.N = 10 := N_0
  have hi0 : (i 0).val < 50000 := (i 0).isLt
  have hi1 : (i 1).val < 128 := (i 1).isLt
  let t : Fin cfg0.N := ⟨(i 0).val / 5000, by show (i 0).val / 5000 < grid0.N; omega⟩
  have ht : t.val = (i 0).val / 5000 := rfl
  refine ⟨t, flush0_5 t, ?_⟩
  rw [mem_blk]
  obtain ⟨-, -, -, -, -, -, -, -, -, -, e0, e1⟩ := idx_facts t
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the launch: the layer of the arrays found at entry. -/
theorem arr (c : Dev nD) : (dat0 V c).arrAt 5 cfg0.N = G V c :=
  (dat0 V c).arrAt_eq_of_cover 5 (G V c) (fun t _ => flushed_eq V c t) cover

end Cert.KernelIdeal.Arr0

end
-- ==== Proof.Arr1.lean ====
/-
  The second launch's output array, as one function of the arrays the launch finds.

  The launch runs ten grid points; point `t` loads rows `t*5000 … t*5000+4999` of the aggregated features and of the node
  features, the whole weight matrices and the whole bias row, and writes rows `t*5000 … t*5000+4999` of the output.
  A layer's row `p` depends on row `p` of the two feature arrays only, and of the residual the same row of the node features, so the tile the body computes at point
  `t` IS block `t` of the whole-array layer (`Cert.GraphLayer.skip`), and the ten blocks cover the output: the output
  array ends holding that layer of the arrays found at entry.
-/
import proofs.«133423_j481036337792_1_alg».proof.Proof.Gen.KernelIdeal.Frame
import proofs.«133423_j481036337792_1_alg».proof.Proof.Tile
import Idealize.ShloMosaic.Lib.Pipeline.Value

set_option maxRecDepth 16384

noncomputable section

namespace Cert.KernelIdeal.Arr1

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the output move one block of rows per point; the
    weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has ten points. -/
theorem t_lt (t : Fin cfg1.N) : t.val < 10 := by
  have h : cfg1.N = 10 := N_1
  have := t.isLt
  omega

/-- Row `t*5000 + r` of a 50000-row array, as an index. -/
abbrev row (t : Fin cfg1.N) (r : Fin 5000) : Fin 50000 := ⟨t.val * 5000 + r.val, by have := t_lt t; omega⟩

/-- Row `r` of point `t`'s block of the aggregated features is row `t*5000 + r` of the array. -/
theorem read_agg (c : Dev nD) (t : Fin cfg1.N) (r : Fin 5000) (e : Fin 128) :
    iblk1 V c 0 t (ix2 r e) = V c main_v31 (ix2 (row t r) e) := by
  show V c main_v31 (((cfg1.win 0).blk t).view.emb (ix2 r e)) = _
  refine congrArg (V c main_v31) (funext fun a => Fin.ext ?_)
  obtain ⟨e0, e1, -⟩ := idx_facts t
  match a with
  | ⟨0, _⟩ => show win1_0.index t (0 : Fin 2) * 5000 + 1 * r.val = t.val * 5000 + r.val; omega
  | ⟨1, _⟩ => show win1_0.index t (1 : Fin 2) * 128 + 1 * e.val = e.val; omega

/-- Row `r` of point `t`'s block of the node features is row `t*5000 + r` of the array. -/
theorem read_x (c : Dev nD) (t : Fin cfg1.N) (r : Fin 5000) (e : Fin 128) :
    iblk1 V c 1 t (ix2 r e) = V c main_v18 (ix2 (row t r) e) := by
  show V c main_v18 (((cfg1.win 1).blk t).view.emb (ix2 r e)) = _
  refine congrArg (V c main_v18) (funext fun a => Fin.ext ?_)
  obtain ⟨-, -, e0, e1, -⟩ := idx_facts t
  match a with
  | ⟨0, _⟩ => show win1_1.index t (0 : Fin 2) * 5000 + 1 * r.val = t.val * 5000 + r.val; omega
  | ⟨1, _⟩ => show win1_1.index t (1 : Fin 2) * 128 + 1 * e.val = e.val; omega

/-- Every point's block of the first weight matrix is the whole matrix. -/
theorem read_w (c : Dev nD) (t : Fin cfg1.N) (q : Fin 128) (e : Fin 128) :
    iblk1 V c 2 t (ix2 q e) = V c main_v33 (ix2 q e) := by
  show V c main_v33 (((cfg1.win 2).blk t).view.emb (ix2 q e)) = _
  refine congrArg (V c main_v33) (funext fun a => Fin.ext ?_)
  obtain ⟨-, -, -, -, e0, e1, -⟩ := idx_facts t
  match a with
  | ⟨0, _⟩ => show win1_2.index t (0 : Fin 2) * 128 + 1 * q.val = q.val; omega
  | ⟨1, _⟩ => show win1_2.index t (1 : Fin 2) * 128 + 1 * e.val = e.val; omega

/-- Every point's block of the bias row is the whole row. -/
theorem read_b (c : Dev nD) (t : Fin cfg1.N) (u : Fin 1) (q : Fin 128) :
    iblk1 V c 3 t (ix2 u q) = V c main_v38 (ix2 u q) := by
  show V c main_v38 (((cfg1.win 3).blk t).view.emb (ix2 u q)) = _
  refine congrArg (V c main_v38) (funext fun a => Fin.ext ?_)
  obtain ⟨-, -, -, -, -, -, e0, e1, -⟩ := idx_facts t
  match a with
  | ⟨0, _⟩ => show win1_3.index t (0 : Fin 2) * 1 + 1 * u.val = u.val; omega
  | ⟨1, _⟩ => show win1_3.index t (1 : Fin 2) * 128 + 1 * q.val = q.val; omega

/-- Every point's block of the second weight matrix is the whole matrix. -/
theorem read_wr (c : Dev nD) (t : Fin cfg1.N) (q : Fin 128) (e : Fin 128) :
    iblk1 V c 4 t (ix2 q e) = V c main_v37 (ix2 q e) := by
  show V c main_v37 (((cfg1.win 4).blk t).view.emb (ix2 q e)) = _
  refine congrArg (V c main_v37) (funext fun a => Fin.ext ?_)
  obtain ⟨-, -, -, -, -, -, -, -, e0, e1, -⟩ := idx_facts t
  match a with
  | ⟨0, _⟩ => show win1_4.index t (0 : Fin 2) * 128 + 1 * q.val = q.val; omega
  | ⟨1, _⟩ => show win1_4.index t (1 : Fin 2) * 128 + 1 * e.val = e.val; omega

/-- Entry `(r, q)` of point `t`'s output block is entry `(t*5000 + r, q)` of the output array. -/
theorem emb_out (t : Fin cfg1.N) (r : Fin 5000) (q : Fin 128) :
    ((cfg1.win 5).blk t).view.emb (ix2 r q) = ix2 (row t r) q := by
  funext a; apply Fin.ext
  obtain ⟨-, -, -, -, -, -, -, -, -, -, e0, e1⟩ := idx_facts t
  match a with
  | ⟨0, _⟩ => show win1_5.index t (0 : Fin 2) * 5000 + 1 * r.val = t.val * 5000 + r.val; omega
  | ⟨1, _⟩ => show win1_5.index t (1 : Fin 2) * 128 + 1 * q.val = q.val; omega

/-- The whole-array layer of the arrays the launch finds. -/
abbrev G (c : Dev nD) : FVec Ideal S50000x128 .f32 :=
  skip (N := 50000) (H := 128) (V c main_v31) (V c main_v18) (V c main_v33) (V c main_v37) (fun q => V c main_v38 (ix2 (0 : Fin 1) q))

/-- What point `t` writes back is block `t` of the whole-array layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  refine (Tile.pay1_apply _ _ _ _ _ r q).trans ?_
  show _ = G V c (((cfg1.win 5).blk t).view.emb (ix2 r q))
  rw [emb_out]
  unfold G skip conv
  simp only [read_agg, read_x, read_w, read_b, read_wr]

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The ten blocks cover the output: row `p` is in the block of point `p / 5000`. -/
theorem cover (i : S50000x128.Idx) : ∃ t : Fin cfg1.N, (cfg1.win 5).flush t = true ∧ i ∈ ((cfg1.win 5).blk t).view.set := by
  have hN : grid1.N = 10 := N_1
  have hi0 : (i 0).val < 50000 := (i 0).isLt
  have hi1 : (i 1).val < 128 := (i 1).isLt
  let t : Fin cfg1.N := ⟨(i 0).val / 5000, by show (i 0).val / 5000 < grid1.N; omega⟩
  have ht : t.val = (i 0).val / 5000 := rfl
  refine ⟨t, flush1_5 t, ?_⟩
  rw [mem_blk]
  obtain ⟨-, -, -, -, -, -, -, -, -, -, e0, e1⟩ := idx_facts t
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the launch: the layer of the arrays found at entry. -/
theorem arr (c : Dev nD) : (dat1 V c).arrAt 5 cfg1.N = G V c :=
  (dat1 V c).arrAt_eq_of_cover 5 (G V c) (fun t _ => flushed_eq V c t) cover

end Cert.KernelIdeal.Arr1

end
-- ==== Proof.Arr2.lean ====
/-
  The third launch's output array, as one function of the arrays the launch finds.

  The launch runs ten grid points; point `t` loads rows `t*5000 … t*5000+4999` of the aggregated features and of the node
  features, the whole weight matrices and the whole bias row, and writes rows `t*5000 … t*5000+4999` of the output.
  A layer's row `p` depends on row `p` of the two feature arrays only, and of the residual the same row of the node features, so the tile the body computes at point
  `t` IS block `t` of the whole-array layer (`Cert.GraphLayer.skip`), and the ten blocks cover the output: the output
  array ends holding that layer of the arrays found at entry.
-/
import proofs.«133423_j481036337792_1_alg».proof.Proof.Gen.KernelIdeal.Frame
import proofs.«133423_j481036337792_1_alg».proof.Proof.Tile
import Idealize.ShloMosaic.Lib.Pipeline.Value

set_option maxRecDepth 16384

noncomputable section

namespace Cert.KernelIdeal.Arr2

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the output move one block of rows per point; the
    weights and the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has ten points. -/
theorem t_lt (t : Fin cfg2.N) : t.val < 10 := by
  have h : cfg2.N = 10 := N_2
  have := t.isLt
  omega

/-- Row `t*5000 + r` of a 50000-row array, as an index. -/
abbrev row (t : Fin cfg2.N) (r : Fin 5000) : Fin 50000 := ⟨t.val * 5000 + r.val, by have := t_lt t; omega⟩

/-- Row `r` of point `t`'s block of the aggregated features is row `t*5000 + r` of the array. -/
theorem read_agg (c : Dev nD) (t : Fin cfg2.N) (r : Fin 5000) (e : Fin 128) :
    iblk2 V c 0 t (ix2 r e) = V c main_v52 (ix2 (row t r) e) := by
  show V c main_v52 (((cfg2.win 0).blk t).view.emb (ix2 r e)) = _
  refine congrArg (V c main_v52) (funext fun a => Fin.ext ?_)
  obtain ⟨e0, e1, -⟩ := idx_facts t
  match a with
  | ⟨0, _⟩ => show win2_0.index t (0 : Fin 2) * 5000 + 1 * r.val = t.val * 5000 + r.val; omega
  | ⟨1, _⟩ => show win2_0.index t (1 : Fin 2) * 128 + 1 * e.val = e.val; omega

/-- Row `r` of point `t`'s block of the node features is row `t*5000 + r` of the array. -/
theorem read_x (c : Dev nD) (t : Fin cfg2.N) (r : Fin 5000) (e : Fin 128) :
    iblk2 V c 1 t (ix2 r e) = V c main_v39 (ix2 (row t r) e) := by
  show V c main_v39 (((cfg2.win 1).blk t).view.emb (ix2 r e)) = _
  refine congrArg (V c main_v39) (funext fun a => Fin.ext ?_)
  obtain ⟨-, -, e0, e1, -⟩ := idx_facts t
  match a with
  | ⟨0, _⟩ => show win2_1.index t (0 : Fin 2) * 5000 + 1 * r.val = t.val * 5000 + r.val; omega
  | ⟨1, _⟩ => show win2_1.index t (1 : Fin 2) * 128 + 1 * e.val = e.val; omega

/-- Every point's block of the first weight matrix is the whole matrix. -/
theorem read_w (c : Dev nD) (t : Fin cfg2.N) (q : Fin 128) (e : Fin 128) :
    iblk2 V c 2 t (ix2 q e) = V c main_v54 (ix2 q e) := by
  show V c main_v54 (((cfg2.win 2).blk t).view.emb (ix2 q e)) = _
  refine congrArg (V c main_v54) (funext fun a => Fin.ext ?_)
  obtain ⟨-, -, -, -, e0, e1, -⟩ := idx_facts t
  match a with
  | ⟨0, _⟩ => show win2_2.index t (0 : Fin 2) * 128 + 1 * q.val = q.val; omega
  | ⟨1, _⟩ => show win2_2.index t (1 : Fin 2) * 128 + 1 * e.val = e.val; omega

/-- Every point's block of the bias row is the whole row. -/
theorem read_b (c : Dev nD) (t : Fin cfg2.N) (u : Fin 1) (q : Fin 128) :
    iblk2 V c 3 t (ix2 u q) = V c main_v59 (ix2 u q) := by
  show V c main_v59 (((cfg2.win 3).blk t).view.emb (ix2 u q)) = _
  refine congrArg (V c main_v59) (funext fun a => Fin.ext ?_)
  obtain ⟨-, -, -, -, -, -, e0, e1, -⟩ := idx_facts t
  match a with
  | ⟨0, _⟩ => show win2_3.index t (0 : Fin 2) * 1 + 1 * u.val = u.val; omega
  | ⟨1, _⟩ => show win2_3.index t (1 : Fin 2) * 128 + 1 * q.val = q.val; omega

/-- Every point's block of the second weight matrix is the whole matrix. -/
theorem read_wr (c : Dev nD) (t : Fin cfg2.N) (q : Fin 128) (e : Fin 128) :
    iblk2 V c 4 t (ix2 q e) = V c main_v58 (ix2 q e) := by
  show V c main_v58 (((cfg2.win 4).blk t).view.emb (ix2 q e)) = _
  refine congrArg (V c main_v58) (funext fun a => Fin.ext ?_)
  obtain ⟨-, -, -, -, -, -, -, -, e0, e1, -⟩ := idx_facts t
  match a with
  | ⟨0, _⟩ => show win2_4.index t (0 : Fin 2) * 128 + 1 * q.val = q.val; omega
  | ⟨1, _⟩ => show win2_4.index t (1 : Fin 2) * 128 + 1 * e.val = e.val; omega

/-- Entry `(r, q)` of point `t`'s output block is entry `(t*5000 + r, q)` of the output array. -/
theorem emb_out (t : Fin cfg2.N) (r : Fin 5000) (q : Fin 128) :
    ((cfg2.win 5).blk t).view.emb (ix2 r q) = ix2 (row t r) q := by
  funext a; apply Fin.ext
  obtain ⟨-, -, -, -, -, -, -, -, -, -, e0, e1⟩ := idx_facts t
  match a with
  | ⟨0, _⟩ => show win2_5.index t (0 : Fin 2) * 5000 + 1 * r.val = t.val * 5000 + r.val; omega
  | ⟨1, _⟩ => show win2_5.index t (1 : Fin 2) * 128 + 1 * q.val = q.val; omega

/-- The whole-array layer of the arrays the launch finds. -/
abbrev G (c : Dev nD) : FVec Ideal S50000x128 .f32 :=
  skip (N := 50000) (H := 128) (V c main_v52) (V c main_v39) (V c main_v54) (V c main_v58) (fun q => V c main_v59 (ix2 (0 : Fin 1) q))

/-- What point `t` writes back is block `t` of the whole-array layer. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  refine (Tile.pay2_apply _ _ _ _ _ r q).trans ?_
  show _ = G V c (((cfg2.win 5).blk t).view.emb (ix2 r q))
  rw [emb_out]
  unfold G skip conv
  simp only [read_agg, read_x, read_w, read_b, read_wr]

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v60).slice (win2_5.rect t)).set ↔ _
  rw [View.set_slice_whole, Rect.mem_set_unit]
  exact Iff.rfl

/-- The ten blocks cover the output: row `p` is in the block of point `p / 5000`. -/
theorem cover (i : S50000x128.Idx) : ∃ t : Fin cfg2.N, (cfg2.win 5).flush t = true ∧ i ∈ ((cfg2.win 5).blk t).view.set := by
  have hN : grid2.N = 10 := N_2
  have hi0 : (i 0).val < 50000 := (i 0).isLt
  have hi1 : (i 1).val < 128 := (i 1).isLt
  let t : Fin cfg2.N := ⟨(i 0).val / 5000, by show (i 0).val / 5000 < grid2.N; omega⟩
  have ht : t.val = (i 0).val / 5000 := rfl
  refine ⟨t, flush2_5 t, ?_⟩
  rw [mem_blk]
  obtain ⟨-, -, -, -, -, -, -, -, -, -, e0, e1⟩ := idx_facts t
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the launch: the layer of the arrays found at entry. -/
theorem arr (c : Dev nD) : (dat2 V c).arrAt 5 cfg2.N = G V c :=
  (dat2 V c).arrAt_eq_of_cover 5 (G V c) (fun t _ => flushed_eq V c t) cover

end Cert.KernelIdeal.Arr2

end
-- ==== Proof.Arr3.lean ====
/-
  The last launch's output array, as one function of the arrays the launch finds.

  The launch runs ten grid points; point `t` loads rows `t*5000 … t*5000+4999` of the aggregated features and of the node
  features, the whole weight matrices and the whole bias row, and writes rows `t*5000 … t*5000+4999` of the output.
  A layer's row `p` depends on row `p` of the two feature arrays only, so the tile the body computes at point
  `t` IS block `t` of the whole-array layer (`Cert.GraphLayer.plain`), and the ten blocks cover the output: the output
  array ends holding that layer of the arrays found at entry.
-/
import proofs.«133423_j481036337792_1_alg».proof.Proof.Gen.KernelIdeal.Frame
import proofs.«133423_j481036337792_1_alg».proof.Proof.Tile
import Idealize.ShloMosaic.Lib.Pipeline.Value

set_option maxRecDepth 16384

noncomputable section

namespace Cert.KernelIdeal.Arr3

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the output move one block of rows per point; the
    weights and the bias stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The grid has ten points. -/
theorem t_lt (t : Fin cfg3.N) : t.val < 10 := by
  have h : cfg3.N = 10 := N_3
  have := t.isLt
  omega

/-- Row `t*5000 + r` of a 50000-row array, as an index. -/
abbrev row (t : Fin cfg3.N) (r : Fin 5000) : Fin 50000 := ⟨t.val * 5000 + r.val, by have := t_lt t; omega⟩

/-- Row `r` of point `t`'s block of the aggregated features is row `t*5000 + r` of the array. -/
theorem read_agg (c : Dev nD) (t : Fin cfg3.N) (r : Fin 5000) (e : Fin 128) :
    iblk3 V c 0 t (ix2 r e) = V c main_v73 (ix2 (row t r) e) := by
  show V c main_v73 (((cfg3.win 0).blk t).view.emb (ix2 r e)) = _
  refine congrArg (V c main_v73) (funext fun a => Fin.ext ?_)
  obtain ⟨e0, e1, -⟩ := idx_facts t
  match a with
  | ⟨0, _⟩ => show win3_0.index t (0 : Fin 2) * 5000 + 1 * r.val = t.val * 5000 + r.val; omega
  | ⟨1, _⟩ => show win3_0.index t (1 : Fin 2) * 128 + 1 * e.val = e.val; omega

/-- Row `r` of point `t`'s block of the node features is row `t*5000 + r` of the array. -/
theorem read_x (c : Dev nD) (t : Fin cfg3.N) (r : Fin 5000) (e : Fin 128) :
    iblk3 V c 1 t (ix2 r e) = V c main_v60 (ix2 (row t r) e) := by
  show V c main_v60 (((cfg3.win 1).blk t).view.emb (ix2 r e)) = _
  refine congrArg (V c main_v60) (funext fun a => Fin.ext ?_)
  obtain ⟨-, -, e0, e1, -⟩ := idx_facts t
  match a with
  | ⟨0, _⟩ => show win3_1.index t (0 : Fin 2) * 5000 + 1 * r.val = t.val * 5000 + r.val; omega
  | ⟨1, _⟩ => show win3_1.index t (1 : Fin 2) * 128 + 1 * e.val = e.val; omega

/-- Every point's block of the first weight matrix is the whole matrix. -/
theorem read_w (c : Dev nD) (t : Fin cfg3.N) (q : Fin 128) (e : Fin 128) :
    iblk3 V c 2 t (ix2 q e) = V c main_v75 (ix2 q e) := by
  show V c main_v75 (((cfg3.win 2).blk t).view.emb (ix2 q e)) = _
  refine congrArg (V c main_v75) (funext fun a => Fin.ext ?_)
  obtain ⟨-, -, -, -, e0, e1, -⟩ := idx_facts t
  match a with
  | ⟨0, _⟩ => show win3_2.index t (0 : Fin 2) * 128 + 1 * q.val = q.val; omega
  | ⟨1, _⟩ => show win3_2.index t (1 : Fin 2) * 128 + 1 * e.val = e.val; omega

/-- Every point's block of the bias row is the whole row. -/
theorem read_b (c : Dev nD) (t : Fin cfg3.N) (u : Fin 1) (q : Fin 128) :
    iblk3 V c 3 t (ix2 u q) = V c main_v80 (ix2 u q) := by
  show V c main_v80 (((cfg3.win 3).blk t).view.emb (ix2 u q)) = _
  refine congrArg (V c main_v80) (funext fun a => Fin.ext ?_)
  obtain ⟨-, -, -, -, -, -, e0, e1, -⟩ := idx_facts t
  match a with
  | ⟨0, _⟩ => show win3_3.index t (0 : Fin 2) * 1 + 1 * u.val = u.val; omega
  | ⟨1, _⟩ => show win3_3.index t (1 : Fin 2) * 128 + 1 * q.val = q.val; omega

/-- Every point's block of the second weight matrix is the whole matrix. -/
theorem read_wr (c : Dev nD) (t : Fin cfg3.N) (q : Fin 128) (e : Fin 128) :
    iblk3 V c 4 t (ix2 q e) = V c main_v79 (ix2 q e) := by
  show V c main_v79 (((cfg3.win 4).blk t).view.emb (ix2 q e)) = _
  refine congrArg (V c main_v79) (funext fun a => Fin.ext ?_)
  obtain ⟨-, -, -, -, -, -, -, -, e0, e1, -⟩ := idx_facts t
  match a with
  | ⟨0, _⟩ => show win3_4.index t (0 : Fin 2) * 128 + 1 * q.val = q.val; omega
  | ⟨1, _⟩ => show win3_4.index t (1 : Fin 2) * 128 + 1 * e.val = e.val; omega

/-- Entry `(r, q)` of point `t`'s output block is entry `(t*5000 + r, q)` of the output array. -/
theorem emb_out (t : Fin cfg3.N) (r : Fin 5000) (q : Fin 128) :
    ((cfg3.win 5).blk t).view.emb (ix2 r q) = ix2 (row t r) q := by
  funext a; apply Fin.ext
  obtain ⟨-, -, -, -, -, -, -, -, -, -, e0, e1⟩ := idx_facts t
  match a with
  | ⟨0, _⟩ => show win3_5.index t (0 : Fin 2) * 5000 + 1 * r.val = t.val * 5000 + r.val; omega
  | ⟨1, _⟩ => show win3_5.index t (1 : Fin 2) * 128 + 1 * q.val = q.val; omega

/-- The whole-array layer of the arrays the launch finds. -/
abbrev G (c : Dev nD) : FVec Ideal S50000x128 .f32 :=
  plain (N := 50000) (K := 128) (H := 128) (V c main_v73) (V c main_v60) (V c main_v75) (V c main_v79) (fun q => V c main_v80 (ix2 (0 : Fin 1) q))

/-- What point `t` writes back is block `t` of the whole-array layer. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  refine (Tile.pay3_apply _ _ _ _ _ r q).trans ?_
  show _ = G V c (((cfg3.win 5).blk t).view.emb (ix2 r q))
  rw [emb_out]
  unfold G plain conv
  simp only [read_agg, read_x, read_w, read_b, read_wr]

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v81).slice (win3_5.rect t)).set ↔ _
  rw [View.set_slice_whole, Rect.mem_set_unit]
  exact Iff.rfl

/-- The ten blocks cover the output: row `p` is in the block of point `p / 5000`. -/
theorem cover (i : S50000x128.Idx) : ∃ t : Fin cfg3.N, (cfg3.win 5).flush t = true ∧ i ∈ ((cfg3.win 5).blk t).view.set := by
  have hN : grid3.N = 10 := N_3
  have hi0 : (i 0).val < 50000 := (i 0).isLt
  have hi1 : (i 1).val < 128 := (i 1).isLt
  let t : Fin cfg3.N := ⟨(i 0).val / 5000, by show (i 0).val / 5000 < grid3.N; omega⟩
  have ht : t.val = (i 0).val / 5000 := rfl
  refine ⟨t, flush3_5 t, ?_⟩
  rw [mem_blk]
  obtain ⟨-, -, -, -, -, -, -, -, -, -, e0, e1⟩ := idx_facts t
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE OUTPUT ARRAY after the launch: the layer of the arrays found at entry. -/
theorem arr (c : Dev nD) : (dat3 V c).arrAt 5 cfg3.N = G V c :=
  (dat3 V c).arrAt_eq_of_cover 5 (G V c) (fun t _ => flushed_eq V c t) cover

end Cert.KernelIdeal.Arr3

end
-- ==== Proof.RefLayers.lean ====
/-
  The reference's four layers, each as the layer function of its inputs.

  The reference computes every layer on the host: the aggregated features (a gather of the source rows, the edge weights,
  a scatter-add into the target rows), two products against the transposed weights, the bias broadcast along the rows,
  a maximum against zero, and for the two middle layers the residual and a second maximum. Stage by stage (the stages of
  the generated read-back) each layer's output is `Cert.GraphLayer.plain` or `Cert.GraphLayer.skip` of the previous
  layer's output, its aggregate, and that layer's slice of the weights.
-/
import proofs.«133423_j481036337792_1_alg».proof.Proof.Gen.ReferenceIdeal.Read
import proofs.«133423_j481036337792_1_alg».proof.Proof.LibGraphLayer

noncomputable section

namespace Cert.ReferenceIdeal.Layers

open Cert.ReferenceIdeal Cert.ReferenceIdeal.Read Idealize.ShloMosaic Idealize.ShloMosaic.ValueIdx Cert.GraphLayer

/-- The 32-wide host product's dimension numbers are "rows against columns". -/
theorem dims32 : dot_S50000x32_S32x128_S50000x128_1_0_0_1_n_n
    = LibMatmulNN.dims (M := 50000) (K := 32) (N := 128) dot_S50000x32_S32x128_S50000x128_1_0_0_1_n_n.wf := rfl

/-- The 128-wide host product's dimension numbers are "rows against columns". -/
theorem dims128 : dot_S50000x128_S128x128_S50000x128_1_0_0_1_n_n
    = LibMatmulNN.dims (M := 50000) (K := 128) (N := 128) dot_S50000x128_S128x128_S50000x128_1_0_0_1_n_n.wf := rfl

/-- Layer 0 (32 input features, no residual). -/
theorem layer0 (x0 : (⟨S50000x32, .f32⟩ : BufTy).Contents (Elt Ideal)) (x1 : (⟨S2x600000, .i32⟩ : BufTy).Contents (Elt Ideal)) (x2 : (⟨S600000, .f32⟩ : BufTy).Contents (Elt Ideal)) (x4 : (⟨S128x32, .f32⟩ : BufTy).Contents (Elt Ideal)) (x5 : (⟨S128, .f32⟩ : BufTy).Contents (Elt Ideal)) (x6 : (⟨S128x32, .f32⟩ : BufTy).Contents (Elt Ideal)) :
    val_main_v25 (F := Ideal) x0 x1 x2 x4 x5 x6
      = plain (N := 50000) (K := 32) (H := 128) (val_main_v16 (F := Ideal) x0 x1 x2) x0 x4 x6 (fun q => x5 (ix1 q)) := by
  unfold val_main_v25 val_main_v24 val_main_v23 val_main_v22 val_main_v21 val_main_v20 val_main_v19 val_main_v18 val_main_v17
    val_main_call0_v0 val_main_call0_cst
  rw [dims32]
  exact host_plain_eq _ _ _ _ _ _ _ _ _ _

/-- Layer 1 (the residual added). -/
theorem layer1 (x0 : (⟨S50000x32, .f32⟩ : BufTy).Contents (Elt Ideal)) (x1 : (⟨S2x600000, .i32⟩ : BufTy).Contents (Elt Ideal)) (x2 : (⟨S600000, .f32⟩ : BufTy).Contents (Elt Ideal)) (x4 : (⟨S128x32, .f32⟩ : BufTy).Contents (Elt Ideal)) (x5 : (⟨S128, .f32⟩ : BufTy).Contents (Elt Ideal)) (x6 : (⟨S128x32, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) :
    val_main_v55 (F := Ideal) x0 x1 x2 x4 x5 x6 x7 x8 x9
      = skip (N := 50000) (H := 128) (val_main_v44 (F := Ideal) x0 x1 x2 x4 x5 x6) (val_main_v25 (F := Ideal) x0 x1 x2 x4 x5 x6)
          (val_main_v27 (F := Ideal) x7) (val_main_v31 (F := Ideal) x9) (fun q => val_main_v29 (F := Ideal) x8 (ix1 q)) := by
  unfold val_main_v55 val_main_v54 val_main_v53 val_main_v52 val_main_v51 val_main_v50 val_main_v49 val_main_v48 val_main_v47
    val_main_v46 val_main_v45 val_main_call1_v0 val_main_call1_cst val_main_call2_v0 val_main_call2_cst
  rw [dims128]
  exact host_skip_eq _ _ _ _ _ _ _ _ _ _

/-- Layer 2 (the residual added). -/
theorem layer2 (x0 : (⟨S50000x32, .f32⟩ : BufTy).Contents (Elt Ideal)) (x1 : (⟨S2x600000, .i32⟩ : BufTy).Contents (Elt Ideal)) (x2 : (⟨S600000, .f32⟩ : BufTy).Contents (Elt Ideal)) (x4 : (⟨S128x32, .f32⟩ : BufTy).Contents (Elt Ideal)) (x5 : (⟨S128, .f32⟩ : BufTy).Contents (Elt Ideal)) (x6 : (⟨S128x32, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) :
    val_main_v85 (F := Ideal) x0 x1 x2 x4 x5 x6 x7 x8 x9
      = skip (N := 50000) (H := 128) (val_main_v74 (F := Ideal) x0 x1 x2 x4 x5 x6 x7 x8 x9) (val_main_v55 (F := Ideal) x0 x1 x2 x4 x5 x6 x7 x8 x9)
          (val_main_v57 (F := Ideal) x7) (val_main_v61 (F := Ideal) x9) (fun q => val_main_v59 (F := Ideal) x8 (ix1 q)) := by
  unfold val_main_v85 val_main_v84 val_main_v83 val_main_v82 val_main_v81 val_main_v80 val_main_v79 val_main_v78 val_main_v77
    val_main_v76 val_main_v75 val_main_call3_v0 val_main_call3_cst val_main_call4_v0 val_main_call4_cst
  rw [dims128]
  exact host_skip_eq _ _ _ _ _ _ _ _ _ _

/-- Layer 3 (128 input features, no residual). -/
theorem layer3 (x0 : (⟨S50000x32, .f32⟩ : BufTy).Contents (Elt Ideal)) (x1 : (⟨S2x600000, .i32⟩ : BufTy).Contents (Elt Ideal)) (x2 : (⟨S600000, .f32⟩ : BufTy).Contents (Elt Ideal)) (x4 : (⟨S128x32, .f32⟩ : BufTy).Contents (Elt Ideal)) (x5 : (⟨S128, .f32⟩ : BufTy).Contents (Elt Ideal)) (x6 : (⟨S128x32, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) :
    val_main_v113 (F := Ideal) x0 x1 x2 x4 x5 x6 x7 x8 x9
      = plain (N := 50000) (K := 128) (H := 128) (val_main_v104 (F := Ideal) x0 x1 x2 x4 x5 x6 x7 x8 x9) (val_main_v85 (F := Ideal) x0 x1 x2 x4 x5 x6 x7 x8 x9)
          (val_main_v87 (F := Ideal) x7) (val_main_v91 (F := Ideal) x9) (fun q => val_main_v89 (F := Ideal) x8 (ix1 q)) := by
  unfold val_main_v113 val_main_v112 val_main_v111 val_main_v110 val_main_v109 val_main_v108 val_main_v107 val_main_v106 val_main_v105
    val_main_call5_v0 val_main_call5_cst
  rw [dims128]
  exact host_plain_eq _ _ _ _ _ _ _ _ _ _

end Cert.ReferenceIdeal.Layers

end
-- ==== Proof.Chain.lean ====
/-
  The kernel's four launches and the host operations between them, read as values: each launch's output array is the
  reference's layer.

  Between the launches the kernel program does on the host exactly what the reference does: it cuts the source and the
  target rows out of the edge list, gathers the source rows of the current node features, scales them by the edge
  weights and scatter-adds them into the target rows (the aggregate), and cuts this layer's weights and bias out of
  their stacks. Each host stretch is therefore read, operation by operation, as the SAME stage of the reference's
  read-back; each launch's output array is the whole-array layer of what the launch finds (the four `Arr` modules), and
  the reference's layer is that same function of the same arrays (`Cert.ReferenceIdeal.Layers`). So, launch after
  launch, the kernel's buffers hold the reference's stages; the last output is the reference's result.
  The buffers that later stretches read again — the edge weights, the three stacks, the source and target rows —
  are followed through every stretch and every launch: none of them is written after it is first computed.
-/
import proofs.«133423_j481036337792_1_alg».proof.Proof.Gen.KernelIdeal.Frame
import proofs.«133423_j481036337792_1_alg».proof.Proof.Gen.ReferenceIdeal.Read
import proofs.«133423_j481036337792_1_alg».proof.Proof.Arr0
import proofs.«133423_j481036337792_1_alg».proof.Proof.Arr1
import proofs.«133423_j481036337792_1_alg».proof.Proof.Arr2
import proofs.«133423_j481036337792_1_alg».proof.Proof.Arr3
import proofs.«133423_j481036337792_1_alg».proof.Proof.RefLayers
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.ValueIdx Cert.GraphLayer
open Cert.ReferenceIdeal.Read

section Stretches

variable (Wv : Valuation τ sig (Elt Ideal))
variable (x0 : (⟨S50000x32, .f32⟩ : BufTy).Contents (Elt Ideal)) (x1 : (⟨S2x600000, .i32⟩ : BufTy).Contents (Elt Ideal))
  (x2 : (⟨S600000, .f32⟩ : BufTy).Contents (Elt Ideal)) (x4 : (⟨S128x32, .f32⟩ : BufTy).Contents (Elt Ideal))
  (x5 : (⟨S128, .f32⟩ : BufTy).Contents (Elt Ideal)) (x6 : (⟨S128x32, .f32⟩ : BufTy).Contents (Elt Ideal))
  (x7 : (⟨S3x128x128, .f32⟩ : BufTy).Contents (Elt Ideal)) (x8 : (⟨S3x128, .f32⟩ : BufTy).Contents (Elt Ideal))
  (x9 : (⟨S3x128x128, .f32⟩ : BufTy).Contents (Elt Ideal))

/-! ## The host operations before launch 0 -/

set_option maxHeartbeats 4000000 in
/-- The aggregate of the input features. -/
theorem s0_agg : StableHlo.after (hostOps0 (F := Ideal)) Wv (Proc.devRef .tc main_v16)
    = val_main_v16 (F := Ideal) (Wv (Proc.devRef .tc main_arg0)) (Wv (Proc.devRef .tc main_arg1)) (Wv (Proc.devRef .tc main_arg2)) := by
  after_results_simp
  rfl

set_option maxHeartbeats 4000000 in
/-- The source rows of the edge list. -/
theorem s0_v1 : StableHlo.after (hostOps0 (F := Ideal)) Wv (Proc.devRef .tc main_v1) = val_main_v1 (F := Ideal) (Wv (Proc.devRef .tc main_arg1)) := by
  after_results_simp
  rfl

set_option maxHeartbeats 4000000 in
/-- The target rows of the edge list. -/
theorem s0_v3 : StableHlo.after (hostOps0 (F := Ideal)) Wv (Proc.devRef .tc main_v3) = val_main_v3 (F := Ideal) (Wv (Proc.devRef .tc main_arg1)) := by
  after_results_simp
  rfl

set_option maxHeartbeats 4000000 in
/-- The first layer's bias, laid out as a row. -/
theorem s0_b : StableHlo.after (hostOps0 (F := Ideal)) Wv (Proc.devRef .tc main_v17)
    = shapeCast S1x128 (Wv (Proc.devRef .tc main_arg5)) shapeCasts_S128_S1x128 := by
  after_results_simp
  rfl

set_option maxHeartbeats 4000000 in
theorem s0_keep_arg0 : StableHlo.after (hostOps0 (F := Ideal)) Wv (Proc.devRef .tc main_arg0) = Wv (Proc.devRef .tc main_arg0) := by
  after_results_simp

set_option maxHeartbeats 4000000 in
theorem s0_keep_arg2 : StableHlo.after (hostOps0 (F := Ideal)) Wv (Proc.devRef .tc main_arg2) = Wv (Proc.devRef .tc main_arg2) := by
  after_results_simp

set_option maxHeartbeats 4000000 in
theorem s0_keep_arg4 : StableHlo.after (hostOps0 (F := Ideal)) Wv (Proc.devRef .tc main_arg4) = Wv (Proc.devRef .tc main_arg4) := by
  after_results_simp

set_option maxHeartbeats 4000000 in
theorem s0_keep_arg6 : StableHlo.after (hostOps0 (F := Ideal)) Wv (Proc.devRef .tc main_arg6) = Wv (Proc.devRef .tc main_arg6) := by
  after_results_simp

set_option maxHeartbeats 4000000 in
theorem s0_keep_arg7 : StableHlo.after (hostOps0 (F := Ideal)) Wv (Proc.devRef .tc main_arg7) = Wv (Proc.devRef .tc main_arg7) := by
  after_results_simp

set_option maxHeartbeats 4000000 in
theorem s0_keep_arg8 : StableHlo.after (hostOps0 (F := Ideal)) Wv (Proc.devRef .tc main_arg8) = Wv (Proc.devRef .tc main_arg8) := by
  after_results_simp

set_option maxHeartbeats 4000000 in
theorem s0_keep_arg9 : StableHlo.after (hostOps0 (F := Ideal)) Wv (Proc.devRef .tc main_arg9) = Wv (Proc.devRef .tc main_arg9) := by
  after_results_simp

/-! ## The host operations before launch 1 -/

set_option maxHeartbeats 4000000 in
/-- The aggregate of the previous layer's output. -/
theorem s1_agg (hprev : Wv (Proc.devRef .tc main_v18) = val_main_v25 (F := Ideal) x0 x1 x2 x4 x5 x6) (h1 : Wv (Proc.devRef .tc main_v1) = val_main_v1 (F := Ideal) x1)
    (h3 : Wv (Proc.devRef .tc main_v3) = val_main_v3 (F := Ideal) x1) (h2 : Wv (Proc.devRef .tc main_arg2) = x2) :
    StableHlo.after (hostOps1 (F := Ideal)) Wv (Proc.devRef .tc main_v31) = val_main_v44 (F := Ideal) x0 x1 x2 x4 x5 x6 := by
  after_results_simp
  rw [hprev, h1, h3, h2]
  rfl

set_option maxHeartbeats 4000000 in
/-- This layer's slice of the first weight stack. -/
theorem s1_w (h7 : Wv (Proc.devRef .tc main_arg7) = x7) :
    StableHlo.after (hostOps1 (F := Ideal)) Wv (Proc.devRef .tc main_v33) = val_main_v27 (F := Ideal) x7 := by
  after_results_simp
  rw [h7]
  rfl

set_option maxHeartbeats 4000000 in
/-- This layer's slice of the second weight stack. -/
theorem s1_wr (h9 : Wv (Proc.devRef .tc main_arg9) = x9) :
    StableHlo.after (hostOps1 (F := Ideal)) Wv (Proc.devRef .tc main_v37) = val_main_v31 (F := Ideal) x9 := by
  after_results_simp
  rw [h9]
  rfl

set_option maxHeartbeats 4000000 in
/-- This layer's bias, laid out as a row. -/
theorem s1_b (h8 : Wv (Proc.devRef .tc main_arg8) = x8) :
    StableHlo.after (hostOps1 (F := Ideal)) Wv (Proc.devRef .tc main_v38) = shapeCast S1x128 (val_main_v29 (F := Ideal) x8) shapeCasts_S128_S1x128 := by
  after_results_simp
  rw [h8]
  rfl

set_option maxHeartbeats 4000000 in
theorem s1_keep_v18 : StableHlo.after (hostOps1 (F := Ideal)) Wv (Proc.devRef .tc main_v18) = Wv (Proc.devRef .tc main_v18) := by
  after_results_simp

set_option maxHeartbeats 4000000 in
theorem s1_keep_v1 : StableHlo.after (hostOps1 (F := Ideal)) Wv (Proc.devRef .tc main_v1) = Wv (Proc.devRef .tc main_v1) := by
  after_results_simp

set_option maxHeartbeats 4000000 in
theorem s1_keep_v3 : StableHlo.after (hostOps1 (F := Ideal)) Wv (Proc.devRef .tc main_v3) = Wv (Proc.devRef .tc main_v3) := by
  after_results_simp

set_option maxHeartbeats 4000000 in
theorem s1_keep_arg2 : StableHlo.after (hostOps1 (F := Ideal)) Wv (Proc.devRef .tc main_arg2) = Wv (Proc.devRef .tc main_arg2) := by
  after_results_simp

set_option maxHeartbeats 4000000 in
theorem s1_keep_arg7 : StableHlo.after (hostOps1 (F := Ideal)) Wv (Proc.devRef .tc main_arg7) = Wv (Proc.devRef .tc main_arg7) := by
  after_results_simp

set_option maxHeartbeats 4000000 in
theorem s1_keep_arg8 : StableHlo.after (hostOps1 (F := Ideal)) Wv (Proc.devRef .tc main_arg8) = Wv (Proc.devRef .tc main_arg8) := by
  after_results_simp

set_option maxHeartbeats 4000000 in
theorem s1_keep_arg9 : StableHlo.after (hostOps1 (F := Ideal)) Wv (Proc.devRef .tc main_arg9) = Wv (Proc.devRef .tc main_arg9) := by
  after_results_simp

/-! ## The host operations before launch 2 -/

set_option maxHeartbeats 4000000 in
/-- The aggregate of the previous layer's output. -/
theorem s2_agg (hprev : Wv (Proc.devRef .tc main_v39) = val_main_v55 (F := Ideal) x0 x1 x2 x4 x5 x6 x7 x8 x9) (h1 : Wv (Proc.devRef .tc main_v1) = val_main_v1 (F := Ideal) x1)
    (h3 : Wv (Proc.devRef .tc main_v3) = val_main_v3 (F := Ideal) x1) (h2 : Wv (Proc.devRef .tc main_arg2) = x2) :
    StableHlo.after (hostOps2 (F := Ideal)) Wv (Proc.devRef .tc main_v52) = val_main_v74 (F := Ideal) x0 x1 x2 x4 x5 x6 x7 x8 x9 := by
  after_results_simp
  rw [hprev, h1, h3, h2]
  rfl

set_option maxHeartbeats 4000000 in
/-- This layer's slice of the first weight stack. -/
theorem s2_w (h7 : Wv (Proc.devRef .tc main_arg7) = x7) :
    StableHlo.after (hostOps2 (F := Ideal)) Wv (Proc.devRef .tc main_v54) = val_main_v57 (F := Ideal) x7 := by
  after_results_simp
  rw [h7]
  rfl

set_option maxHeartbeats 4000000 in
/-- This layer's slice of the second weight stack. -/
theorem s2_wr (h9 : Wv (Proc.devRef .tc main_arg9) = x9) :
    StableHlo.after (hostOps2 (F := Ideal)) Wv (Proc.devRef .tc main_v58) = val_main_v61 (F := Ideal) x9 := by
  after_results_simp
  rw [h9]
  rfl

set_option maxHeartbeats 4000000 in
/-- This layer's bias, laid out as a row. -/
theorem s2_b (h8 : Wv (Proc.devRef .tc main_arg8) = x8) :
    StableHlo.after (hostOps2 (F := Ideal)) Wv (Proc.devRef .tc main_v59) = shapeCast S1x128 (val_main_v59 (F := Ideal) x8) shapeCasts_S128_S1x128 := by
  after_results_simp
  rw [h8]
  rfl

set_option maxHeartbeats 4000000 in
theorem s2_keep_v39 : StableHlo.after (hostOps2 (F := Ideal)) Wv (Proc.devRef .tc main_v39) = Wv (Proc.devRef .tc main_v39) := by
  after_results_simp

set_option maxHeartbeats 4000000 in
theorem s2_keep_v1 : StableHlo.after (hostOps2 (F := Ideal)) Wv (Proc.devRef .tc main_v1) = Wv (Proc.devRef .tc main_v1) := by
  after_results_simp

set_option maxHeartbeats 4000000 in
theorem s2_keep_v3 : StableHlo.after (hostOps2 (F := Ideal)) Wv (Proc.devRef .tc main_v3) = Wv (Proc.devRef .tc main_v3) := by
  after_results_simp

set_option maxHeartbeats 4000000 in
theorem s2_keep_arg2 : StableHlo.after (hostOps2 (F := Ideal)) Wv (Proc.devRef .tc main_arg2) = Wv (Proc.devRef .tc main_arg2) := by
  after_results_simp

set_option maxHeartbeats 4000000 in
theorem s2_keep_arg7 : StableHlo.after (hostOps2 (F := Ideal)) Wv (Proc.devRef .tc main_arg7) = Wv (Proc.devRef .tc main_arg7) := by
  after_results_simp

set_option maxHeartbeats 4000000 in
theorem s2_keep_arg8 : StableHlo.after (hostOps2 (F := Ideal)) Wv (Proc.devRef .tc main_arg8) = Wv (Proc.devRef .tc main_arg8) := by
  after_results_simp

set_option maxHeartbeats 4000000 in
theorem s2_keep_arg9 : StableHlo.after (hostOps2 (F := Ideal)) Wv (Proc.devRef .tc main_arg9) = Wv (Proc.devRef .tc main_arg9) := by
  after_results_simp

/-! ## The host operations before launch 3 -/

set_option maxHeartbeats 4000000 in
/-- The aggregate of the previous layer's output. -/
theorem s3_agg (hprev : Wv (Proc.devRef .tc main_v60) = val_main_v85 (F := Ideal) x0 x1 x2 x4 x5 x6 x7 x8 x9) (h1 : Wv (Proc.devRef .tc main_v1) = val_main_v1 (F := Ideal) x1)
    (h3 : Wv (Proc.devRef .tc main_v3) = val_main_v3 (F := Ideal) x1) (h2 : Wv (Proc.devRef .tc main_arg2) = x2) :
    StableHlo.after (hostOps3 (F := Ideal)) Wv (Proc.devRef .tc main_v73) = val_main_v104 (F := Ideal) x0 x1 x2 x4 x5 x6 x7 x8 x9 := by
  after_results_simp
  rw [hprev, h1, h3, h2]
  rfl

set_option maxHeartbeats 4000000 in
/-- This layer's slice of the first weight stack. -/
theorem s3_w (h7 : Wv (Proc.devRef .tc main_arg7) = x7) :
    StableHlo.after (hostOps3 (F := Ideal)) Wv (Proc.devRef .tc main_v75) = val_main_v87 (F := Ideal) x7 := by
  after_results_simp
  rw [h7]
  rfl

set_option maxHeartbeats 4000000 in
/-- This layer's slice of the second weight stack. -/
theorem s3_wr (h9 : Wv (Proc.devRef .tc main_arg9) = x9) :
    StableHlo.after (hostOps3 (F := Ideal)) Wv (Proc.devRef .tc main_v79) = val_main_v91 (F := Ideal) x9 := by
  after_results_simp
  rw [h9]
  rfl

set_option maxHeartbeats 4000000 in
/-- This layer's bias, laid out as a row. -/
theorem s3_b (h8 : Wv (Proc.devRef .tc main_arg8) = x8) :
    StableHlo.after (hostOps3 (F := Ideal)) Wv (Proc.devRef .tc main_v80) = shapeCast S1x128 (val_main_v89 (F := Ideal) x8) shapeCasts_S128_S1x128 := by
  after_results_simp
  rw [h8]
  rfl

set_option maxHeartbeats 4000000 in
theorem s3_keep_v60 : StableHlo.after (hostOps3 (F := Ideal)) Wv (Proc.devRef .tc main_v60) = Wv (Proc.devRef .tc main_v60) := by
  after_results_simp

end Stretches

/-- A bias vector laid out as a row, read along the row, is the vector. -/
theorem bias_row (b : (⟨S128, .f32⟩ : BufTy).Contents (Elt Ideal)) :
    (fun q : Fin 128 => shapeCast S1x128 b shapeCasts_S128_S1x128 (ix2 (0 : Fin 1) q)) = fun q => b (ix1 q) :=
  funext fun q => BiasRead.vector_as_row_apply (b := 128) b shapeCasts_S128_S1x128 0 q

/-! ## The run's boundaries -/

variable (m : (ℓ : Loc nD τ sig) → Buf (Elt Ideal) ℓ) (ρ : Dev nD → PrngReg) (c : Dev nD)

/-- The argument arrays at launch. -/
abbrev A0 := m ((c : Thread nD τ).loc main_arg0)
abbrev A1 := m ((c : Thread nD τ).loc main_arg1)
abbrev A2 := m ((c : Thread nD τ).loc main_arg2)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)

/-- What every later stretch reads again, at a boundary's contents: the edge weights, the three stacks, and the source
    and target rows of the edge list. -/
structure Kept (Wv : Valuation τ sig (Elt Ideal)) : Prop where
  a2 : Wv (Proc.devRef .tc main_arg2) = A2 m c
  a7 : Wv (Proc.devRef .tc main_arg7) = A7 m c
  a8 : Wv (Proc.devRef .tc main_arg8) = A8 m c
  a9 : Wv (Proc.devRef .tc main_arg9) = A9 m c
  v1 : Wv (Proc.devRef .tc main_v1) = val_main_v1 (F := Ideal) (A1 m c)
  v3 : Wv (Proc.devRef .tc main_v3) = val_main_v3 (F := Ideal) (A1 m c)

/-- Launch 0's entry. -/
theorem kept1 : Kept m c (W1 m ρ c) where
  a2 := s0_keep_arg2 (W0 m ρ c)
  a7 := s0_keep_arg7 (W0 m ρ c)
  a8 := s0_keep_arg8 (W0 m ρ c)
  a9 := s0_keep_arg9 (W0 m ρ c)
  v1 := s0_v1 (W0 m ρ c)
  v3 := s0_v3 (W0 m ρ c)

/-- Launch 0's exit: the launch writes none of these. -/
theorem kept2 : Kept m c (W2 m ρ c) where
  a2 := (W2_of_ne m ρ c main_arg2 (by decide)).trans (kept1 m ρ c).a2
  a7 := (W2_of_ne m ρ c main_arg7 (by decide)).trans (kept1 m ρ c).a7
  a8 := (W2_of_ne m ρ c main_arg8 (by decide)).trans (kept1 m ρ c).a8
  a9 := (W2_of_ne m ρ c main_arg9 (by decide)).trans (kept1 m ρ c).a9
  v1 := (W2_of_ne m ρ c main_v1 (by decide)).trans (kept1 m ρ c).v1
  v3 := (W2_of_ne m ρ c main_v3 (by decide)).trans (kept1 m ρ c).v3

/-- Launch 1's entry. -/
theorem kept3 : Kept m c (W3 m ρ c) where
  a2 := (s1_keep_arg2 (W2 m ρ c)).trans (kept2 m ρ c).a2
  a7 := (s1_keep_arg7 (W2 m ρ c)).trans (kept2 m ρ c).a7
  a8 := (s1_keep_arg8 (W2 m ρ c)).trans (kept2 m ρ c).a8
  a9 := (s1_keep_arg9 (W2 m ρ c)).trans (kept2 m ρ c).a9
  v1 := (s1_keep_v1 (W2 m ρ c)).trans (kept2 m ρ c).v1
  v3 := (s1_keep_v3 (W2 m ρ c)).trans (kept2 m ρ c).v3

/-- Launch 1's exit. -/
theorem kept4 : Kept m c (W4 m ρ c) where
  a2 := (W4_of_ne m ρ c main_arg2 (by decide)).trans (kept3 m ρ c).a2
  a7 := (W4_of_ne m ρ c main_arg7 (by decide)).trans (kept3 m ρ c).a7
  a8 := (W4_of_ne m ρ c main_arg8 (by decide)).trans (kept3 m ρ c).a8
  a9 := (W4_of_ne m ρ c main_arg9 (by decide)).trans (kept3 m ρ c).a9
  v1 := (W4_of_ne m ρ c main_v1 (by decide)).trans (kept3 m ρ c).v1
  v3 := (W4_of_ne m ρ c main_v3 (by decide)).trans (kept3 m ρ c).v3

/-- Launch 2's entry. -/
theorem kept5 : Kept m c (W5 m ρ c) where
  a2 := (s2_keep_arg2 (W4 m ρ c)).trans (kept4 m ρ c).a2
  a7 := (s2_keep_arg7 (W4 m ρ c)).trans (kept4 m ρ c).a7
  a8 := (s2_keep_arg8 (W4 m ρ c)).trans (kept4 m ρ c).a8
  a9 := (s2_keep_arg9 (W4 m ρ c)).trans (kept4 m ρ c).a9
  v1 := (s2_keep_v1 (W4 m ρ c)).trans (kept4 m ρ c).v1
  v3 := (s2_keep_v3 (W4 m ρ c)).trans (kept4 m ρ c).v3

/-- Launch 2's exit. -/
theorem kept6 : Kept m c (W6 m ρ c) where
  a2 := (W6_of_ne m ρ c main_arg2 (by decide)).trans (kept5 m ρ c).a2
  a7 := (W6_of_ne m ρ c main_arg7 (by decide)).trans (kept5 m ρ c).a7
  a8 := (W6_of_ne m ρ c main_arg8 (by decide)).trans (kept5 m ρ c).a8
  a9 := (W6_of_ne m ρ c main_arg9 (by decide)).trans (kept5 m ρ c).a9
  v1 := (W6_of_ne m ρ c main_v1 (by decide)).trans (kept5 m ρ c).v1
  v3 := (W6_of_ne m ρ c main_v3 (by decide)).trans (kept5 m ρ c).v3

/-! ## The four layers -/

/-- Launch 0 leaves the reference's layer 0 in its output. -/
theorem out0 : W2 m ρ c (Proc.devRef .tc main_v18) = val_main_v25 (F := Ideal) (A0 m c) (A1 m c) (A2 m c) (A4 m c) (A5 m c) (A6 m c) := by
  refine (W2_arr m ρ c 5).trans ((Arr0.arr (V1 m ρ) c).trans ?_)
  unfold Arr0.G
  show plain (W1 m ρ c (Proc.devRef .tc main_v16)) (W1 m ρ c (Proc.devRef .tc main_arg0)) (W1 m ρ c (Proc.devRef .tc main_arg4)) (W1 m ρ c (Proc.devRef .tc main_arg6))
      (fun q => W1 m ρ c (Proc.devRef .tc main_v17) (ix2 (0 : Fin 1) q)) = _
  have e1 : W1 m ρ c (Proc.devRef .tc main_v16) = val_main_v16 (F := Ideal) (A0 m c) (A1 m c) (A2 m c) := s0_agg (W0 m ρ c)
  have e2 : W1 m ρ c (Proc.devRef .tc main_arg0) = A0 m c := s0_keep_arg0 (W0 m ρ c)
  have e3 : W1 m ρ c (Proc.devRef .tc main_arg4) = A4 m c := s0_keep_arg4 (W0 m ρ c)
  have e4 : W1 m ρ c (Proc.devRef .tc main_arg6) = A6 m c := s0_keep_arg6 (W0 m ρ c)
  have e5 : W1 m ρ c (Proc.devRef .tc main_v17) = shapeCast S1x128 (A5 m c) shapeCasts_S128_S1x128 := s0_b (W0 m ρ c)
  rw [e1, e2, e3, e4, e5, bias_row]
  exact (Cert.ReferenceIdeal.Layers.layer0 _ _ _ _ _ _).symm

/-- Launch 1 leaves the reference's layer 1 in its output. -/
theorem out1 : W4 m ρ c (Proc.devRef .tc main_v39) = val_main_v55 (F := Ideal) (A0 m c) (A1 m c) (A2 m c) (A4 m c) (A5 m c) (A6 m c) (A7 m c) (A8 m c) (A9 m c) := by
  have k := kept2 m ρ c
  refine (W4_arr m ρ c 5).trans ((Arr1.arr (V3 m ρ) c).trans ?_)
  unfold Arr1.G
  show skip (W3 m ρ c (Proc.devRef .tc main_v31)) (W3 m ρ c (Proc.devRef .tc main_v18)) (W3 m ρ c (Proc.devRef .tc main_v33)) (W3 m ρ c (Proc.devRef .tc main_v37))
      (fun q => W3 m ρ c (Proc.devRef .tc main_v38) (ix2 (0 : Fin 1) q)) = _
  have e1 : W3 m ρ c (Proc.devRef .tc main_v31) = val_main_v44 (F := Ideal) (A0 m c) (A1 m c) (A2 m c) (A4 m c) (A5 m c) (A6 m c) := s1_agg (W2 m ρ c) _ _ _ _ _ _ (out0 m ρ c) k.v1 k.v3 k.a2
  have e2 : W3 m ρ c (Proc.devRef .tc main_v18) = val_main_v25 (F := Ideal) (A0 m c) (A1 m c) (A2 m c) (A4 m c) (A5 m c) (A6 m c) := (s1_keep_v18 (W2 m ρ c)).trans (out0 m ρ c)
  have e3 : W3 m ρ c (Proc.devRef .tc main_v33) = val_main_v27 (F := Ideal) (A7 m c) := s1_w (W2 m ρ c) _ k.a7
  have e4 : W3 m ρ c (Proc.devRef .tc main_v37) = val_main_v31 (F := Ideal) (A9 m c) := s1_wr (W2 m ρ c) _ k.a9
  have e5 : W3 m ρ c (Proc.devRef .tc main_v38) = shapeCast S1x128 (val_main_v29 (F := Ideal) (A8 m c)) shapeCasts_S128_S1x128 := s1_b (W2 m ρ c) _ k.a8
  rw [e1, e2, e3, e4, e5, bias_row]
  exact (Cert.ReferenceIdeal.Layers.layer1 _ _ _ _ _ _ _ _ _).symm

/-- Launch 2 leaves the reference's layer 2 in its output. -/
theorem out2 : W6 m ρ c (Proc.devRef .tc main_v60) = val_main_v85 (F := Ideal) (A0 m c) (A1 m c) (A2 m c) (A4 m c) (A5 m c) (A6 m c) (A7 m c) (A8 m c) (A9 m c) := by
  have k := kept4 m ρ c
  refine (W6_arr m ρ c 5).trans ((Arr2.arr (V5 m ρ) c).trans ?_)
  unfold Arr2.G
  show skip (W5 m ρ c (Proc.devRef .tc main_v52)) (W5 m ρ c (Proc.devRef .tc main_v39)) (W5 m ρ c (Proc.devRef .tc main_v54)) (W5 m ρ c (Proc.devRef .tc main_v58))
      (fun q => W5 m ρ c (Proc.devRef .tc main_v59) (ix2 (0 : Fin 1) q)) = _
  have e1 : W5 m ρ c (Proc.devRef .tc main_v52) = val_main_v74 (F := Ideal) (A0 m c) (A1 m c) (A2 m c) (A4 m c) (A5 m c) (A6 m c) (A7 m c) (A8 m c) (A9 m c) := s2_agg (W4 m ρ c) _ _ _ _ _ _ _ _ _ (out1 m ρ c) k.v1 k.v3 k.a2
  have e2 : W5 m ρ c (Proc.devRef .tc main_v39) = val_main_v55 (F := Ideal) (A0 m c) (A1 m c) (A2 m c) (A4 m c) (A5 m c) (A6 m c) (A7 m c) (A8 m c) (A9 m c) := (s2_keep_v39 (W4 m ρ c)).trans (out1 m ρ c)
  have e3 : W5 m ρ c (Proc.devRef .tc main_v54) = val_main_v57 (F := Ideal) (A7 m c) := s2_w (W4 m ρ c) _ k.a7
  have e4 : W5 m ρ c (Proc.devRef .tc main_v58) = val_main_v61 (F := Ideal) (A9 m c) := s2_wr (W4 m ρ c) _ k.a9
  have e5 : W5 m ρ c (Proc.devRef .tc main_v59) = shapeCast S1x128 (val_main_v59 (F := Ideal) (A8 m c)) shapeCasts_S128_S1x128 := s2_b (W4 m ρ c) _ k.a8
  rw [e1, e2, e3, e4, e5, bias_row]
  exact (Cert.ReferenceIdeal.Layers.layer2 _ _ _ _ _ _ _ _ _).symm

/-- Launch 3 leaves the reference's result in its output. -/
theorem out3 : W8 m ρ c (Proc.devRef .tc main_v81) = val_main_v113 (F := Ideal) (A0 m c) (A1 m c) (A2 m c) (A4 m c) (A5 m c) (A6 m c) (A7 m c) (A8 m c) (A9 m c) := by
  have k := kept6 m ρ c
  refine (W8_arr m ρ c 5).trans ((Arr3.arr (V7 m ρ) c).trans ?_)
  unfold Arr3.G
  show plain (W7 m ρ c (Proc.devRef .tc main_v73)) (W7 m ρ c (Proc.devRef .tc main_v60)) (W7 m ρ c (Proc.devRef .tc main_v75)) (W7 m ρ c (Proc.devRef .tc main_v79))
      (fun q => W7 m ρ c (Proc.devRef .tc main_v80) (ix2 (0 : Fin 1) q)) = _
  have e1 : W7 m ρ c (Proc.devRef .tc main_v73) = val_main_v104 (F := Ideal) (A0 m c) (A1 m c) (A2 m c) (A4 m c) (A5 m c) (A6 m c) (A7 m c) (A8 m c) (A9 m c) := s3_agg (W6 m ρ c) _ _ _ _ _ _ _ _ _ (out2 m ρ c) k.v1 k.v3 k.a2
  have e2 : W7 m ρ c (Proc.devRef .tc main_v60) = val_main_v85 (F := Ideal) (A0 m c) (A1 m c) (A2 m c) (A4 m c) (A5 m c) (A6 m c) (A7 m c) (A8 m c) (A9 m c) := (s3_keep_v60 (W6 m ρ c)).trans (out2 m ρ c)
  have e3 : W7 m ρ c (Proc.devRef .tc main_v75) = val_main_v87 (F := Ideal) (A7 m c) := s3_w (W6 m ρ c) _ k.a7
  have e4 : W7 m ρ c (Proc.devRef .tc main_v79) = val_main_v91 (F := Ideal) (A9 m c) := s3_wr (W6 m ρ c) _ k.a9
  have e5 : W7 m ρ c (Proc.devRef .tc main_v80) = shapeCast S1x128 (val_main_v89 (F := Ideal) (A8 m c)) shapeCasts_S128_S1x128 := s3_b (W6 m ρ c) _ k.a8
  rw [e1, e2, e3, e4, e5, bias_row]
  exact (Cert.ReferenceIdeal.Layers.layer3 _ _ _ _ _ _ _ _ _).symm

end Cert.KernelIdeal.Chain

end
-- ==== Proof.lean ====
/-
  A four-layer graph convolution: the Pallas kernel program against the jnp reference, at the exact extended reals.

  Both programs compute, layer by layer,
      out' = max( (agg · Wᵀ + b) + out · Wrᵀ , 0 )        (the first and the last layer)
      out' = max( max( (agg · Wᵀ + b) + out · Wrᵀ , 0 ) + out , 0 )   (the two middle layers, with the residual)
  where `agg` is the edge-weighted sum of the source rows of `out` scattered into the target rows. The aggregate and the
  cuts of the weight stacks are host operations in both programs, the same ones in the same order. The dense part is a
  host `dot_general` in the reference and, in the kernel, one launch per layer over ten tiles of 5000 nodes, each tile a
  `tpu.matmul` into a zero accumulator on operands narrowed to bf16 — the identity at the exact instance. A layer's row
  depends on the same row of its inputs only, so the ten tiles are the blocks of the whole-array layer, and both
  contractions run over the same index in the same order: the two results are equal entry by entry with no
  rearrangement of sums, and the precondition (finite inputs) is never used.

  The modules: `LibGraphLayer` (the layer at an index; the host's and a tile's spelling of it), `Tile` (each launch's stored
  value), `Arr0` … `Arr3` (each launch's output array), `RefLayers` (the reference's stages as layers), `Chain` (the host
  stretches and the four launches in sequence), `KernelRun` (the kernel's run with its result named).
  The three frames are the generated ones (the reference's is its generated run with the result dropped); the ideal pass
  rewrote nothing, so `preserves` is trivial.
-/
import proofs.«133423_j481036337792_1_alg».proof.Defs
import proofs.«133423_j481036337792_1_alg».proof.Proof.Gen.Kernel
import proofs.«133423_j481036337792_1_alg».proof.Proof.Gen.Kernel.Skeleton
import proofs.«133423_j481036337792_1_alg».proof.Proof.Gen.Kernel.Launch
import proofs.«133423_j481036337792_1_alg».proof.Proof.Gen.Kernel.Points
import proofs.«133423_j481036337792_1_alg».proof.Proof.Gen.Kernel.Frame
import proofs.«133423_j481036337792_1_alg».proof.Proof.Gen.KernelIdeal
import proofs.«133423_j481036337792_1_alg».proof.Proof.Gen.KernelIdeal.Skeleton
import proofs.«133423_j481036337792_1_alg».proof.Proof.Gen.KernelIdeal.Launch
import proofs.«133423_j481036337792_1_alg».proof.Proof.Gen.KernelIdeal.Points
import proofs.«133423_j481036337792_1_alg».proof.Proof.Gen.KernelIdeal.Frame
import proofs.«133423_j481036337792_1_alg».proof.Proof.Gen.ReferenceIdeal
import proofs.«133423_j481036337792_1_alg».proof.Proof.Gen.ReferenceIdeal.Run
import proofs.«133423_j481036337792_1_alg».proof.Proof.Gen.ReferenceIdeal.Read
import proofs.«133423_j481036337792_1_alg».proof.Proof.Gen.Pre_finite_inputs
import Idealize.ShloMosaic.Adequacy
import Idealize.ShloMosaic.Init
import proofs.«133423_j481036337792_1_alg».proof.Proof.KernelRun
import proofs.«133423_j481036337792_1_alg».proof.Proof.Chain

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the reference's last stage of the (agreeing) arguments in the result buffer. -/
theorem algebraic : Cert.algebraic_KernelIdeal_ReferenceIdeal := by
  intro m ρ m' ρ' _ hagree
  refine ⟨fun c => Cert.ReferenceIdeal.Read.val_main_v113 (F := Ideal) (Cert.KernelIdeal.Chain.A0 m c)
      (Cert.KernelIdeal.Chain.A1 m c) (Cert.KernelIdeal.Chain.A2 m c) (Cert.KernelIdeal.Chain.A4 m c)
      (Cert.KernelIdeal.Chain.A5 m c) (Cert.KernelIdeal.Chain.A6 m c) (Cert.KernelIdeal.Chain.A7 m c)
      (Cert.KernelIdeal.Chain.A8 m c) (Cert.KernelIdeal.Chain.A9 m c), ?_, ?_⟩
  · exact (θ_run Cert.KernelIdeal.defs _ _).mono
      (fun r h c => ⟨(h c).1.trans (Cert.KernelIdeal.Chain.out3 m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, -, h4, h5, h6, h7, h8, h9⟩ := hagree c
    rw [Cert.ReferenceIdeal.Read.val_main_v113_eq, h0, h1, h2, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
